-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S64x64 : Shape := ⟨2, ![64, 64]⟩
abbrev S64 : Shape := ⟨1, ![64]⟩
abbrev S_ : Shape := ⟨0, ![]⟩
abbrev S16x2048x2048 : Shape := ⟨3, ![16, 2048, 2048]⟩
abbrev S2048x2048 : Shape := ⟨2, ![2048, 2048]⟩
abbrev S1x2048x2048 : Shape := ⟨3, ![1, 2048, 2048]⟩
abbrev S16x2048 : Shape := ⟨2, ![16, 2048]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  bcast_S_S16x2048 : S_.BroadcastsInDim S16x2048 (![] : Fin 0 → Fin S16x2048.rank)
  reducesTo_S16x2048_S_d0_1 : S16x2048.ReducesTo [0, 1] S_
  dot_S16x2048x64_S16x2048x64_S16x2048x2048_2_2_1_1_0_0_wf : DotDims.WF S16x2048x64 S16x2048x64 S16x2048x2048 [2] [2] [1] [1] [0] [0]

variable [Facts]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def fn_part2 {F : FTy → Type} [FloatOps F] (main_arg0 : FVec F S16x2048x64 .f32) (main_v33 : IVec S_ 1) : IVec S_ 1 :=
  let main_v34 : FVec F S16x2048x2048 .f32 := (fun l r => Host.dotGeneral dot_S16x2048x64_S16x2048x64_S16x2048x2048_2_2_1_1_0_0 none l r) main_arg0 main_arg0
  let main_v35 : IVec S2048x2048 32 := iotaInDim S2048x2048 32 0
  let main_v36 : IVec S2048x2048 32 := iotaInDim S2048x2048 32 1
  let main_c_12 : IVec S_ 32 := constantI S_ 32 0#32
  let main_v37 : IVec S2048x2048 32 := broadcastInDim S2048x2048 ![] bcast_S_S2048x2048 main_c_12
  let main_v38 : IVec S2048x2048 32 := addi main_v35 main_v37
  let main_v39 : IVec S2048x2048 1 := cmpi .eq main_v38 main_v36
  let main_v40 : FVec F S2048x2048 .f32 := uitofp .f32 main_v39
  let main_v41 : FVec F S1x2048x2048 .f32 := broadcastInDim S1x2048x2048 ![1, 2] bcast_S2048x2048_S1x2048x2048_1_2 main_v40
  let main_v42 : FVec F S16x2048x2048 .f32 := broadcastInDim S16x2048x2048 ![0, 1, 2] bcast_S1x2048x2048_S16x2048x2048_0_1_2 main_v41
  let main_v43 : FVec F S16x2048x2048 .f32 := addf main_v34 main_v42
  let main_cst_13 : FVec F S_ .f32 := constant S_ .f32 0x00000000#32
  let main_v44 : FVec F S16x2048 .f32 := (fun x v => Host.reduceAdd x v reducesTo_S16x2048x2048_S16x2048_d2 h_S_) main_v43 main_cst_13
  let main_cst_14 : FVec F S_ .f32 := constant S_ .f32 0x00000000#32
  let main_v45 : FVec F S16x2048 .f32 := broadcastInDim S16x2048 ![] bcast_S_S16x2048 main_cst_14
  let main_v46 : IVec S16x2048 1 := cmpf .oge main_v44 main_v45
  let main_c_15 : IVec S_ 1 := constantI S_ 1 1#1
  let main_v47 : IVec S_ 1 := (fun x v => Host.reduce IntOp.andi x v reducesTo_S16x2048_S_d0_1 h_S_) main_v46 main_c_15
  let main_v48 : IVec S_ 1 := andi main_v33 main_v47
  main_v48

def fn_part1 {F : FTy → Type} [FloatOps F] (main_arg0 : FVec F S16x2048x64 .f32) (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_v33

def fn {F : FTy → Type} [FloatOps F] (main_arg0 : FVec F S16x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg4 main_arg5 main_arg6 main_v13 main_v16
-- ==== Kernel.lean ====
abbrev S16x2048x64 : Shape := ⟨3, ![16, 2048, 64]⟩
abbrev S64x64 : Shape := ⟨2, ![64, 64]⟩
abbrev S64 : Shape := ⟨1, ![64]⟩
abbrev S1x64 : Shape := ⟨2, ![1, 64]⟩
abbrev S1x2048x64 : Shape := ⟨3, ![1, 2048, 64]⟩
abbrev S2048x64 : Shape := ⟨2, ![2048, 64]⟩
abbrev S2048 : Shape := ⟨1, ![2048]⟩
abbrev S2048x1 : Shape := ⟨2, ![2048, 1]⟩

abbrev nBuf : Space → Nat
  | .hbm => 11
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x2048x64, .f32⟩
  | .local _ .vmem, ⟨9, _⟩ => ⟨S1x2048x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S2048x64_S64 : S2048x64.Reduces [0] S64
  broadcasts_S1x64_S2048x64 : S1x64.Broadcasts S2048x64
  reduces_S2048x64_S2048 : S2048x64.Reduces [1] S2048
  shapeCasts_S2048_S2048x1 : S2048.ShapeCasts S2048x1
  bitsLt_bf16_f32 : FTy.bits .bf16 < FTy.bits .f32
  broadcasts_S2048x1_S2048x64 : S2048x1.Broadcasts S2048x64
  shapeCasts_S2048x64_S1x2048x64 : S2048x64.ShapeCasts S1x2048x64
  dot_S2048x64_S64x64_S2048x64_1_0_0_1_n_n_wf : DotDims.WF S2048x64 S64x64 S2048x64 [1] [0] [0] [1] [] []
  dot_S2048x64_S2048x64_S64x64_0_0_1_1_n_n_wf : DotDims.WF S2048x64 S2048x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x64.size a ≤ S16x2048x64.size a
  hwx0_7 : ∀ i : grid0.Coords, EltTy.bits .f32 = 32 ∨ (Rect.block (s := S16x2048x64) S1x2048x64.size (cc0_transform_7 i) (hinb0_7 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S64x64 : Shape := ⟨2, ![64, 64]⟩
abbrev S64 : Shape := ⟨1, ![64]⟩
abbrev S16x2048x2048 : Shape := ⟨3, ![16, 2048, 2048]⟩
abbrev S2048x2048 : Shape := ⟨2, ![2048, 2048]⟩
abbrev S_ : Shape := ⟨0, ![]⟩
abbrev S1x2048x2048 : Shape := ⟨3, ![1, 2048, 2048]⟩
abbrev S16x2048 : Shape := ⟨2, ![16, 2048]⟩
abbrev S16x2048x1 : Shape := ⟨3, ![16, 2048, 1]⟩
abbrev S16x1x2048 : Shape := ⟨3, ![16, 1, 2048]⟩
abbrev S1x1x64 : Shape := ⟨3, ![1, 1, 64]⟩

abbrev nBuf : Space → Nat
  | .hbm => 115
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S16x2048x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S1x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S16x2048, .f32⟩
  | .hbm, ⟨22, _⟩ => ⟨S16x2048, .i1⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S16x1x2048, .f32⟩
  | .hbm, ⟨33, _⟩ => ⟨S16x2048x2048, .f32⟩
  | .hbm, ⟨34, _⟩ => ⟨S16x2048x2048, .f32⟩
  | .hbm, ⟨35, _⟩ => ⟨S16x2048x64, .f32⟩
  | .hbm, ⟨36, _⟩ => ⟨S1x1x64, .f32⟩
  | .hbm, ⟨37, _⟩ => ⟨S16x2048x64, .f32⟩
  | .hbm, ⟨38, _⟩ => ⟨S16x2048x64, .f32⟩
  | .hbm, ⟨39, _⟩ => ⟨S16x2048x64, .f32⟩
  | .hbm, ⟨40, _⟩ => ⟨S_, .f32⟩
  | .hbm, ⟨41, _⟩ => ⟨S16x2048x64, .f32⟩
  | .hbm, ⟨42, _⟩ => ⟨S16x2048x64, .f32⟩
  | .hbm, ⟨43, _⟩ => ⟨S16x2048x2048, .f32⟩
  | .hbm, ⟨44, _⟩ => ⟨S2048x2048, .i32⟩
  | .hbm, ⟨45, _⟩ => ⟨S2048x2048, .i32⟩
  | .hbm, ⟨46, _⟩ => ⟨S_, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S2048x2048, .f32⟩
  | .hbm, ⟨51, _⟩ => ⟨S1x2048x2048, .f32⟩
  | .hbm, ⟨52, _⟩ => ⟨S16x2048x2048, .f32⟩
  | .hbm, ⟨53, _⟩ => ⟨S16x2048x2048, .f32⟩
  | .hbm, ⟨54, _⟩ => ⟨S_, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .i1⟩
  | .hbm, ⟨59, _⟩ => ⟨S_, .f32⟩
  | .hbm, ⟨60, _⟩ => ⟨S16x2048, .f32⟩
  | .hbm, ⟨61, _⟩ => ⟨S16x2048, .f32⟩
  | .hbm, ⟨62, _⟩ => ⟨S_, .f32⟩
  | .hbm, ⟨63, _⟩ => ⟨S16x2048, .f32⟩
  | .hbm, ⟨64, _⟩ => ⟨S16x2048, .f32⟩
  | .hbm, ⟨65, _⟩ => ⟨S16x2048x1, .f32⟩
  | .hbm, ⟨66, _⟩ => ⟨S16x2048x2048, .f32⟩
  | .hbm, ⟨67, _⟩ => ⟨S16x2048x2048, .f32⟩
  | .hbm, ⟨68, _⟩ => ⟨S16x1x2048, .f32⟩
  | .hbm, ⟨69, _⟩ => ⟨S16x2048x2048, .f32⟩
  | .hbm, ⟨70, _⟩ => ⟨S16x2048x2048, .f32⟩
  | .hbm, ⟨71, _⟩ => ⟨S16x2048x64, .f32⟩
  | .hbm, ⟨72, _⟩ => ⟨S1x1x64, .f32⟩
  | .hbm, ⟨73, _⟩ => ⟨S16x2048x64, .f32⟩
  | .hbm, ⟨74, _⟩ => ⟨S16x2048x64, .f32⟩
  | .hbm, ⟨75, _⟩ => ⟨S16x2048x64, .f32⟩
  | .hbm, ⟨76, _⟩ => ⟨S_, .f32⟩
  | .hbm, ⟨77, _⟩ => ⟨S16x2048x64, .f32⟩
  | .hbm, ⟨78, _⟩ => ⟨S16x2048x64, .f32⟩
  | .hbm, ⟨79, _⟩ => ⟨S16x2048x2048, .f32⟩
  | .hbm, ⟨80, _⟩ => ⟨S2048x2048, .i32⟩
  | .hbm, ⟨81, _⟩ => ⟨S2048x2048, .i32⟩
  | .hbm, ⟨82, _⟩ => ⟨S_, .i32⟩
  | .hbm, ⟨83, _⟩ => ⟨S2048x2048, .i32⟩
  | .hbm, ⟨84, _⟩ => ⟨S2048x2048, .i32⟩
  | .hbm, ⟨85, _⟩ => ⟨S2048x2048, .i1⟩
  | .hbm, ⟨86, _⟩ => ⟨S2048x2048, .f32⟩
  | .hbm, ⟨87, _⟩ => ⟨S1x2048x2048, .f32⟩
  | .hbm, ⟨88, _⟩ => ⟨S16x2048x2048, .f32⟩
  | .hbm, ⟨89, _⟩ => ⟨S16x2048x2048, .f32⟩
  | .hbm, ⟨90, _⟩ => ⟨S_, .f32⟩
  | .hbm, ⟨91, _⟩ => ⟨S16x2048, .f32⟩
  | .hbm, ⟨92, _⟩ => ⟨S_, .f32⟩
  | .hbm, ⟨93, _⟩ => ⟨S16x2048, .f32⟩
  | .hbm, ⟨94, _⟩ => ⟨S16x2048, .i1⟩
  | .hbm, ⟨95, _⟩ => ⟨S_, .f32⟩
  | .hbm, ⟨96, _⟩ => ⟨S16x2048, .f32⟩
  | .hbm, ⟨97, _⟩ => ⟨S16x2048, .f32⟩
  | .hbm, ⟨98, _⟩ => ⟨S_, .f32⟩
  | .hbm, ⟨99, _⟩ => ⟨S16x2048, .f32⟩
  | .hbm, ⟨100, _⟩ => ⟨S16x2048, .f32⟩
  | .hbm, ⟨101, _⟩ => ⟨S16x2048x1, .f32⟩
  | .hbm, ⟨102, _⟩ => ⟨S16x2048x2048, .f32⟩
  | .hbm, ⟨103, _⟩ => ⟨S16x2048x2048, .f32⟩
  | .hbm, ⟨104, _⟩ => ⟨S16x1x2048, .f32⟩
  | .hbm, ⟨105, _⟩ => ⟨S16x2048x2048, .f32⟩
  | .hbm, ⟨106, _⟩ => ⟨S16x2048x2048, .f32⟩
  | .hbm, ⟨107, _⟩ => ⟨S16x2048x64, .f32⟩
  | .hbm, ⟨108, _⟩ => ⟨S1x1x64, .f32⟩
  | .hbm, ⟨109, _⟩ => ⟨S16x2048x64, .f32⟩
  | .hbm, ⟨110, _⟩ => ⟨S16x2048x64, .f32⟩
  | .hbm, ⟨111, _⟩ => ⟨S16x2048x64, .f32⟩
  | .hbm, ⟨112, _⟩ => ⟨S_, .f32⟩
  | .hbm, ⟨113, _⟩ => ⟨S16x2048x64, .f32⟩
  | .hbm, ⟨114, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_cst : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call3_cst : Ref sig .tc := ⟨.hbm, 76, rfl⟩
abbrev main_call3_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_call5_cst : Ref sig .tc := ⟨.hbm, 112, rfl⟩
abbrev main_call5_v0 : Ref sig .tc := ⟨.hbm, 113, rfl⟩
abbrev main_v86 : Ref sig .tc := ⟨.hbm, 114, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S_S16x2048x64 : S_.BroadcastsInDim S16x2048x64 (![] : Fin 0 → Fin S16x2048x64.rank)
  dot_S16x2048x64_S16x2048x64_S16x2048x2048_2_2_1_1_0_0_wf : DotDims.WF S16x2048x64 S16x2048x64 S16x2048x2048 [2] [2] [1] [1] [0] [0]
  dot_S16x2048x64_S64x64_S16x2048x64_2_0_01_1_n_n_wf : DotDims.WF S16x2048x64 S64x64 S16x2048x64 [2] [0] [0, 1] [1] [] []
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KernelLayer.lean ====
/-
  One layer of the kernel's body as a function of its three operands, and the body's three layers as that function
  applied three times.

  The body computes, for a block `x` of 2048 points with 64 features, a weight matrix `W` and a bias row `b`:
  the column sums of `x`; from them each point's degree `x_n · (Σ_m x_m) + 1`, with a zero degree replaced by one
  (`guardedDegree`); then (`layerTail`) the inverse square root `d` of that, `H' = (x W + b) d` row by row,
  the 64×64 product `xᵀ H'`, and `relu (d (x (xᵀ H') + H'))`. The printed payloads cut this sequence at other places
  (the second and third layers receive their column sums, or their guarded degrees, ready-made); the equations below
  say that each payload is one of these three functions, by unfolding alone, for any float instance.
-/
import proofs.«151379_j33741263077528_1_alg».proof.Proof.Gen.KernelIdeal.Skeleton

noncomputable section

namespace Cert.KernelLayer

open Idealize.ShloMosaic Idealize.SL.Sem Cert.KernelIdeal Cert.KernelIdeal.Gen

variable {F : FTy → Type} [FloatOps F]

/-- The column sums of a block: `Σ_m x (m, k)`. -/
def colSums (x : FVec F S2048x64 .f32) : FVec F S64 .f32 :=
  multiReduction .add [0] S64 x 0x00000000#32 reduces_S2048x64_S64 (.inl rfl) rfl

/-- Each point's degree `x_n · s + 1` from the block and its column sums `s`, as a column, a zero replaced by one. -/
def guardedDegree (x : FVec F S2048x64 .f32) (xs : FVec F S64 .f32) : FVec F S2048x1 .f32 :=
  have v38 : FVec F S1x64 .f32 := shapeCast S1x64 xs shapeCasts_S64_S1x64
  have v39 : FVec F S2048x64 .f32 := broadcastTo S2048x64 v38 broadcasts_S1x64_S2048x64
  have v40 : FVec F S2048x64 .f32 := mulf x v39
  have v41 : FVec F S2048 .f32 := multiReduction .add [1] S2048 v40 0x00000000#32 reduces_S2048x64_S2048 (.inl rfl) rfl
  have v42 : FVec F S2048x1 .f32 := shapeCast S2048x1 v41 shapeCasts_S2048_S2048x1
  have cst_20 : F .f32 := Scalar.ofBits .f32 0x3F800000#32
  have v43 : FVec F S2048x1 .f32 := broadcast S2048x1 cst_20
  have v44 : FVec F S2048x1 .f32 := addf v42 v43
  have cst_21 : F .f32 := Scalar.ofBits .f32 0x00000000#32
  have v45 : FVec F S2048x1 .f32 := broadcast S2048x1 cst_21
  have v46 : IVec S2048x1 1 := cmpf .oeq v44 v45
  have cst_22 : F .f32 := Scalar.ofBits .f32 0x3F800000#32
  have v47 : FVec F S2048x1 .f32 := broadcast S2048x1 cst_22
  have v48 : FVec F S2048x1 .f32 := select v46 v47 v44
  v48

/-- `H' = (x W + b) d` with `d = g^(-1/2)`: the rows of the layer's linear map scaled by the inverse square roots of
    the guarded degrees `g`. -/
def scaledHidden (x : FVec F S2048x64 .f32) (W : Vec F S64x64 .f32) (b : FVec F S1x64 .f32) (g : FVec F S2048x1 .f32) :
    FVec F S2048x64 .f32 :=
  have v81 : FVec F S2048x1 .f32 := rsqrt g
  have v82 : FVec F S2048x64 .bf16 := truncf .bf16 x bitsLt_bf16_f32
  have v83 : FVec F S64x64 .bf16 := truncf .bf16 W bitsLt_bf16_f32
  have cst_36 : FVec F S2048x64 .f32 := constant S2048x64 .f32 0x00000000#32
  have v84 : FVec F S2048x64 .f32 := matmul dot_S2048x64_S64x64_S2048x64_1_0_0_1_n_n none v82 v83 cst_36
  have v85 : FVec F S2048x64 .f32 := broadcastTo S2048x64 b broadcasts_S1x64_S2048x64
  have v86 : FVec F S2048x64 .f32 := addf v84 v85
  have v87 : FVec F S2048x64 .f32 := broadcastTo S2048x64 v81 broadcasts_S2048x1_S2048x64
  have v88 : FVec F S2048x64 .f32 := mulf v86 v87
  v88

/-- `xᵀ H'`: the 64×64 product contracted over the 2048 points. -/
def gram (x : FVec F S2048x64 .f32) (hp : FVec F S2048x64 .f32) : FVec F S64x64 .f32 :=
  have v82 : FVec F S2048x64 .bf16 := truncf .bf16 x bitsLt_bf16_f32
  have v89 : FVec F S2048x64 .bf16 := truncf .bf16 hp bitsLt_bf16_f32
  have cst_37 : FVec F S64x64 .f32 := constant S64x64 .f32 0x00000000#32
  have v90 : FVec F S64x64 .f32 := matmul dot_S2048x64_S2048x64_S64x64_0_0_1_1_n_n none v82 v89 cst_37
  v90

/-- The rest of a layer, from the block, the weights, the bias row and the guarded degrees `g`:
    `relu (d (x (xᵀ H') + H'))` with `d = g^(-1/2)` and `H' = (x W + b) d`. -/
def layerTail (x : FVec F S2048x64 .f32) (W : Vec F S64x64 .f32) (b : FVec F S1x64 .f32) (g : FVec F S2048x1 .f32) :
    FVec F S2048x64 .f32 :=
  have v81 : FVec F S2048x1 .f32 := rsqrt g
  have v82 : FVec F S2048x64 .bf16 := truncf .bf16 x bitsLt_bf16_f32
  have v88 : FVec F S2048x64 .f32 := scaledHidden x W b g
  have v91 : FVec F S64x64 .bf16 := truncf .bf16 (gram x v88) bitsLt_bf16_f32
  have cst_38 : FVec F S2048x64 .f32 := constant S2048x64 .f32 0x00000000#32
  have v92 : FVec F S2048x64 .f32 := matmul dot_S2048x64_S64x64_S2048x64_1_0_0_1_n_n none v82 v91 cst_38
  have v93 : FVec F S2048x64 .f32 := addf v92 v88
  have v94 : FVec F S2048x64 .f32 := broadcastTo S2048x64 v81 broadcasts_S2048x1_S2048x64
  have v95 : FVec F S2048x64 .f32 := mulf v94 v93
  have cst_39 : F .f32 := Scalar.ofBits .f32 0x00000000#32
  have v96 : FVec F S2048x64 .f32 := broadcast S2048x64 cst_39
  have v97 : FVec F S2048x64 .f32 := maximumf v95 v96
  v97

/-- One whole layer. -/
def layer (x : FVec F S2048x64 .f32) (W : Vec F S64x64 .f32) (b : FVec F S1x64 .f32) : FVec F S2048x64 .f32 :=
  layerTail x W b (guardedDegree x (colSums x))

/-! ## The payloads are these functions -/

/-- The first layer's payload: the whole layer of the loaded block, its leading unit axis dropped. -/
theorem pay2_eq (v0 : Vec F S1x2048x64 .f32) (v2 : Vec F S64x64 .f32) (v3 : Vec F S1x64 .f32) :
    k0_pay2 v0 v2 v3 = layer (shapeCast S2048x64 v0 shapeCasts_S1x2048x64_S2048x64) v2 (shapeCast S1x64 v3 shapeCasts_S1x64_S1x64) := rfl

/-- The first layer's column sums, which the second layer receives ready-made. -/
theorem pay4_eq (v0 : Vec F S1x2048x64 .f32) (v2 : Vec F S64x64 .f32) (v3 : Vec F S1x64 .f32) :
    k0_pay4 v0 v2 v3 = colSums (k0_pay2 v0 v2 v3) := rfl

/-- The second layer's payload, from its input, its column sums, the weights and the bias row. -/
theorem pay5_eq (v33 : FVec F S2048x64 .f32) (v34 : Vec F S64x64 .f32) (v36 : FVec F S1x64 .f32) (v37 : FVec F S64 .f32) :
    k0_pay5 v33 v34 v36 v37 = layerTail v33 v34 v36 (guardedDegree v33 v37) := rfl

/-- The third layer's guarded degrees, computed by the second part of the body. -/
theorem pay7_eq (v33 : FVec F S2048x64 .f32) (v34 : Vec F S64x64 .f32) (v36 : FVec F S1x64 .f32) (v37 : FVec F S64 .f32) :
    k0_pay7 v33 v34 v36 v37 = guardedDegree (k0_pay5 v33 v34 v36 v37) (colSums (k0_pay5 v33 v34 v36 v37)) := rfl

/-- The stored payload: the third layer's tail, a leading unit axis added. -/
theorem pay1_eq (v65 : FVec F S2048x64 .f32) (v66 : Vec F S64x64 .f32) (v68 : FVec F S1x64 .f32) (v80 : FVec F S2048x1 .f32) :
    k0_pay1 v65 v66 v68 v80 = shapeCast S1x2048x64 (layerTail v65 v66 v68 v80) shapeCasts_S2048x64_S1x2048x64 := rfl

/-- The whole stored value: three layers of the loaded block. -/
theorem stored_eq (v0 : Vec F S1x2048x64 .f32) (W0 : Vec F S64x64 .f32) (b0 : Vec F S1x64 .f32) (W1 : Vec F S64x64 .f32)
    (b1 : Vec F S1x64 .f32) (W2 : Vec F S64x64 .f32) (b2 : Vec F S1x64 .f32) :
    k0_pay1 (k0_pay5 (k0_pay2 v0 W0 b0) W1 (k0_pay3 b1) (k0_pay4 v0 W0 b0)) W2 (k0_pay6 b2)
        (k0_pay7 (k0_pay2 v0 W0 b0) W1 (k0_pay3 b1) (k0_pay4 v0 W0 b0))
      = shapeCast S1x2048x64
          (layer (layer (layer (shapeCast S2048x64 v0 shapeCasts_S1x2048x64_S2048x64) W0 (shapeCast S1x64 b0 shapeCasts_S1x64_S1x64))
            W1 (shapeCast S1x64 b1 shapeCasts_S1x64_S1x64)) W2 (shapeCast S1x64 b2 shapeCasts_S1x64_S1x64))
          shapeCasts_S2048x64_S1x2048x64 := by
  rw [pay1_eq, pay7_eq, pay5_eq, pay4_eq, pay2_eq]
  rfl

end Cert.KernelLayer

end
-- ==== Proof.GraphConv.lean ====
/-
  One graph-convolution layer on a point cloud, in its two arrangements, as functions on the extended reals.

  A cloud of points is a matrix `X` (one row per point `n : ι`, one column per feature `k : κ`). Its similarity graph has the
  edge weight `x_n · x_m` between points `n` and `m`, plus one on the diagonal (a self-loop); the degree of `n` is the sum of
  its row of weights; the graph is normalised symmetrically, by the inverse square roots of the degrees on both sides (a
  zero degree is replaced by one first); and the layer is `relu (Â (X W + b))` with `Â` the normalised matrix.

  * the DENSE arrangement (`layerDense`) is that sentence, term by term: the `ι × ι` matrix is formed and summed over;
  * the FACTORED arrangement (`layerFactored`) never forms it: the degree is `x_n · (Σ_m x_m) + 1`, and
    `Â H = d (X (Xᵀ (d H)) + d H)` row-scaled by `d = degree^(-1/2)`, three thin products.

  They are the same function of real inputs whose degrees are not negative (GraphConvLaw), by distributing the sums.
  On the extended reals they are NOT the same everywhere: the inverse square root of a negative number is taken two
  ways (`Ideal.rsqrt` gives `⊥`, the real power gives `0`), which is why the law asks for the degrees to be `≥ 0`.
-/
import Idealize.ShloMosaic.PureOps.Ideal

noncomputable section

namespace Cert.GraphConv

open Idealize.ShloMosaic

variable {ι κ : Type} [Fintype ι] [Fintype κ] [DecidableEq ι]

/-- A zero degree is replaced by one before the inverse square root is taken. -/
def guard (d : EReal) : EReal := if d = 0 then 1 else d

/-- `H = X W + b`: the layer's linear map, one row per point. -/
def hidden (X : ι → κ → EReal) (W : κ → κ → EReal) (b : κ → EReal) (n : ι) (f : κ) : EReal :=
  (∑ k, X n k * W k f) + b f

/-! ## The dense arrangement -/

/-- The edge weight between points `n` and `m`: their inner product, plus one on the diagonal. -/
def weight (X : ι → κ → EReal) (n m : ι) : EReal := (∑ k, X n k * X m k) + (if n = m then 1 else 0)

/-- The degree of `n`: the sum of its row of edge weights. -/
def degDense (X : ι → κ → EReal) (n : ι) : EReal := ∑ m, weight X n m

/-- The degree to the power `-1/2`, by the real power. -/
def scaleDense (X : ι → κ → EReal) (n : ι) : EReal := Ideal.pow (guard (degDense X n)) ((-(1 / 2) : ℝ) : EReal)

/-- `relu (Â H)`, the normalised matrix formed entry by entry: `Â_nm = (w_nm · d_n) · d_m`. -/
def layerDense (X : ι → κ → EReal) (W : κ → κ → EReal) (b : κ → EReal) (n : ι) (f : κ) : EReal :=
  max (∑ m, ((weight X n m * scaleDense X n) * scaleDense X m) * hidden X W b m f) 0

/-! ## The factored arrangement -/

/-- The sum of all points, feature by feature. -/
def colSum (X : ι → κ → EReal) (k : κ) : EReal := ∑ m, X m k

/-- The degree of `n` as `x_n · (Σ_m x_m) + 1`. -/
def degFactored (X : ι → κ → EReal) (n : ι) : EReal := (∑ k, X n k * colSum X k) + 1

/-- The inverse square root of the degree. -/
def scaleFactored (X : ι → κ → EReal) (n : ι) : EReal := Ideal.rsqrt (guard (degFactored X n))

/-- `d H`: the rows of `H` scaled. -/
def scaledHidden (X : ι → κ → EReal) (W : κ → κ → EReal) (b : κ → EReal) (n : ι) (f : κ) : EReal :=
  hidden X W b n f * scaleFactored X n

/-- `Xᵀ (d H)`, a `κ × κ` matrix. -/
def gram (X : ι → κ → EReal) (W : κ → κ → EReal) (b : κ → EReal) (k f : κ) : EReal :=
  ∑ m, X m k * scaledHidden X W b m f

/-- `relu (d (X (Xᵀ (d H)) + d H))`. -/
def layerFactored (X : ι → κ → EReal) (W : κ → κ → EReal) (b : κ → EReal) (n : ι) (f : κ) : EReal :=
  max (scaleFactored X n * ((∑ k, X n k * gram X W b k f) + scaledHidden X W b n f)) 0

/-! ## Three layers -/

/-- Three layers of one arrangement `L`, each fed the one before. -/
def three (L : (ι → κ → EReal) → (κ → κ → EReal) → (κ → EReal) → ι → κ → EReal)
    (X : ι → κ → EReal) (W0 : κ → κ → EReal) (b0 : κ → EReal) (W1 : κ → κ → EReal) (b1 : κ → EReal)
    (W2 : κ → κ → EReal) (b2 : κ → EReal) : ι → κ → EReal :=
  L (L (L X W0 b0) W1 b1) W2 b2

end Cert.GraphConv

end
-- ==== Proof.LibPlainDot.lean ====
/-
  A plain matrix product — M×K by K×N, the left operand contracted on its columns and the right on its rows, no batch
  axis (`DotDims.plain M K N`) — read at an index at the ideal values, for any extents.

  * `plain_lhsIdx` / `plain_rhsIdx`: at result index (r, c) and contraction coordinate k the operand indices are
    (r, k) and (k, c).
  * `dotGeneral_plain_apply`: the host's product at (r, c) is the sum over k of left (r, k) times right (k, c).
  * `matmul_plain_zero_apply`: the vector unit's product into a zero accumulator is the same sum.
  * `matmul_plain_zero_eq_dotGeneral`: a product of a block of rows (of any two formats) at a block index is the
    product of whole arrays (of any two formats, under any precision and schedule key) at an array index, as soon as the
    block's row is the array's row and the right operands' columns agree: no rounding is left at the ideal values, so
    the tiling of the rows and the operand formats do not matter.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The left operand's index of a plain product at result index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ (0 : Fin (⟨2, ![M, K]⟩ : Shape).rank)).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index of a plain product at result index `j` and contraction coordinate `k` is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ (1 : Fin (⟨2, ![K, N]⟩ : Shape).rank)).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The host's plain product at the ideal values, at (r, c): the sum over k of left (r, k) times right (k, c). -/
theorem dotGeneral_plain_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) := by
  rw [Ideal.dotGeneral_apply, ← Equiv.sum_comp (contrEquiv1 (DotDims.plain M K N) K rfl rfl).symm]
  refine Finset.sum_congr rfl fun k _ => ?_
  rw [plain_lhsIdx, plain_rhsIdx]
  rfl

/-- The vector unit's plain product into a zero accumulator, at the ideal values, at (r, c): the same sum. -/
theorem matmul_plain_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

/-- A block of B rows times a right operand, into zero, read at block index `y`, is the whole M-row product read at array
    index `i`, when the block's row at `y` is the array's row at `i` and the right operands agree on the column. -/
theorem matmul_plain_zero_eq_dotGeneral {B : Nat} {φ₁ φ₂ ψ₁ ψ₂ : FTy} (prec prec' : Option ContractPrecision)
    (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂)
    (y : (⟨2, ![B, N]⟩ : Shape).Idx) (i : (⟨2, ![M, N]⟩ : Shape).Idx)
    (hrow : ∀ k : Fin K, (lb (ix2 (y 0) k) : EReal) = l (ix2 (i 0) k))
    (hcol : ∀ k : Fin K, (rb (ix2 k (y 1)) : EReal) = r (ix2 k (i 1))) :
    (FloatOps.matmul (DotDims.plain B K N) prec lb rb (constant ⟨2, ![B, N]⟩ .f32 0x00000000#32) y : EReal)
      = FloatOps.dotGeneral (DotDims.plain M K N) prec' sched l r i := by
  rw [matmul_plain_zero_apply, dotGeneral_plain_apply]
  exact Finset.sum_congr rfl fun k _ => by rw [hrow k, hcol k]

end Cert.LibPlainDot

end
-- ==== Proof.LibTransDot.lean ====
/-
  A matrix product contracted over the ROWS of both operands, read at an index at the ideal values.

  For any extents K, M, N: the dimension numbers <[0], [0], [1], [1]> of a K×M left operand and a K×N right operand
  (the left operand used transposed), and the vector unit's product into a zero accumulator under them, which at the
  extended reals is, at (i, j), the sum over the K rows r of left (r, i) · right (r, j).
-/
import Idealize.ShloMosaic.PureOps.Ideal.Laws
import Idealize.ShloMosaic.Lib.ValueIdx

noncomputable section

open scoped BigOperators

namespace Cert.LibTransDot

open Idealize.ShloMosaic Idealize.ShloMosaic.ValueIdx

/-- `<[0], [0], [1], [1], [0, 1, 1, 1], [], []>`: `K×M` by `K×N`, both contracted on their first axis. -/
def transLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand's index at result index `j` and contraction coordinate `k` is (`k`, row of `j`). -/
theorem transLhs_lhsIdx (j : (⟨2, ![M, N]⟩ : Shape).Idx) (k : Fin K) :
    (transLhs K M N).lhsIdx j ((contrEquiv1 (transLhs K M N) K rfl rfl).symm k) = ix2 k (j 0) := by
  have hk := contrEquiv1_symm_val (transLhs K M N) K rfl rfl k
  funext a
  apply Fin.ext
  match a with
  | ⟨0, _⟩ => exact ((transLhs K M N).lhsIdx_val_of_single rfl j _).trans hk
  | ⟨1, _⟩ =>
    show ((transLhs K M N).lhsIdx j _ (1 : Fin (⟨2, ![K, M]⟩ : Shape).rank)).val = (j 0).val
    unfold DotDims.lhsIdx
    rw [dif_neg (show ¬(1 : Fin (⟨2, ![K, M]⟩ : Shape).rank) ∈ (transLhs K M N).lhsBatch from List.not_mem_nil),
      dif_pos (show (1 : Fin (⟨2, ![K, M]⟩ : Shape).rank) ∈ (transLhs K M N).lhsNonContracting from List.mem_singleton.mpr rfl)]
    rfl

/-- The right operand's index at result index `j` and contraction coordinate `k` is (`k`, column of `j`). -/
theorem transLhs_rhsIdx (j : (⟨2, ![M, N]⟩ : Shape).Idx) (k : Fin K) :
    (transLhs K M N).rhsIdx j ((contrEquiv1 (transLhs K M N) K rfl rfl).symm k) = ix2 k (j 1) := by
  have hk := contrEquiv1_symm_val (transLhs K M N) K rfl rfl k
  funext a
  apply Fin.ext
  match a with
  | ⟨0, _⟩ => exact ((transLhs K M N).rhsIdx_val_of_single rfl j _).trans hk
  | ⟨1, _⟩ =>
    show ((transLhs K M N).rhsIdx j _ (1 : Fin (⟨2, ![K, N]⟩ : Shape).rank)).val = (j 1).val
    unfold DotDims.rhsIdx
    rw [dif_neg (show ¬(1 : Fin (⟨2, ![K, N]⟩ : Shape).rank) ∈ (transLhs K M N).rhsBatch from List.not_mem_nil),
      dif_pos (show (1 : Fin (⟨2, ![K, N]⟩ : Shape).rank) ∈ (transLhs K M N).rhsNonContracting from List.mem_singleton.mpr rfl)]
    rfl

/-- The vector unit's product contracted over the rows, into a zero accumulator, at the ideal values, at (i, j): the sum
    over the rows r of left (r, i) times right (r, j). -/
theorem matmul_transLhs_zero_apply {φ₁ φ₂ : FTy} (prec : Option ContractPrecision)
    (l : FVec Ideal ⟨2, ![K, M]⟩ φ₁) (r : FVec Ideal ⟨2, ![K, N]⟩ φ₂) (j : (⟨2, ![M, N]⟩ : Shape).Idx) :
    FloatOps.matmul (transLhs K M N) prec l r (constant ⟨2, ![M, N]⟩ .f32 0x00000000#32) j
      = ∑ k : Fin K, l (ix2 k (j 0)) * r (ix2 k (j 1)) := by
  rw [Ideal.matmul_constant_zero_apply, ← Equiv.sum_comp (contrEquiv1 (transLhs K M N) K rfl rfl).symm]
  refine Finset.sum_congr rfl fun k _ => ?_
  rw [transLhs_lhsIdx, transLhs_rhsIdx]
  rfl

end Cert.LibTransDot

end
-- ==== Proof.LibRowBias.lean ====
/-
  A vector read as a row and repeated down the rows, for any element type and any extents R, C, read at (r, k):
  * `hostRow_apply`: the host's two steps — a length-C vector given a leading unit axis ([C] → [1, C], its axis sent to
    axis 1) and that row broadcast to [R, C] — read at (r, k) the vector's entry k;
  * `vectorRow_apply`: the vector unit's two steps — the vector cast to [1, C] and broadcast to [R, C] — read the same;
  * `hostSplat_apply`: a scalar broadcast to any shape reads the scalar everywhere.
-/
import Idealize.ShloMosaic.Lib.Pipeline.Value
import Idealize.ShloMosaic.Lib.ValueIdx
import Idealize.ShloMosaic.Lib.ValueLayout

noncomputable section

namespace Cert.LibRowBias

open Idealize.ShloMosaic Idealize.ShloMosaic.ValueIdx

variable {α : Type} {R C : Nat}

/-- A length-C vector given a leading unit axis on the host reads, at (u, k), its entry k. -/
theorem hostUnitRow_apply (h1 : (⟨1, ![C]⟩ : Shape).BroadcastsInDim ⟨2, ![1, C]⟩ (![1] : Fin 1 → Fin 2))
    (b : (⟨1, ![C]⟩ : Shape).Idx → α) (u : Fin 1) (k : Fin C) :
    broadcastInDim ⟨2, ![1, C]⟩ (![1] : Fin 1 → Fin 2) h1 b (ix2 u k) = b (ix1 k) := by
  refine broadcastInDim_apply _ h1 b (ix2 u k) (ix1 k) fun a => ?_
  match a with
  | ⟨0, _⟩ =>
    show k.val = if C = 1 then 0 else k.val
    split
    · have := k.isLt; omega
    · rfl

/-- That row broadcast to R rows reads, at (r, k), the row's entry (0, k). -/
theorem hostRows_apply (h2 : (⟨2, ![1, C]⟩ : Shape).BroadcastsInDim ⟨2, ![R, C]⟩ (![0, 1] : Fin 2 → Fin 2))
    (v : (⟨2, ![1, C]⟩ : Shape).Idx → α) (r : Fin R) (k : Fin C) :
    broadcastInDim ⟨2, ![R, C]⟩ (![0, 1] : Fin 2 → Fin 2) h2 v (ix2 r k) = v (ix2 (0 : Fin 1) k) := by
  refine broadcastInDim_apply _ h2 v (ix2 r k) (ix2 (0 : Fin 1) k) fun a => ?_
  match a with
  | ⟨0, _⟩ => rfl
  | ⟨1, _⟩ =>
    show k.val = if C = 1 then 0 else k.val
    split
    · have := k.isLt; omega
    · rfl

/-- The host's row of a vector, repeated down R rows, reads at (r, k) the vector's entry k. -/
theorem hostRow_apply (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (b : (⟨1, ![C]⟩ : Shape).Idx → α) (r : Fin R) (k : Fin C) :
    broadcastInDim ⟨2, ![R, C]⟩ (![0, 1] : Fin 2 → Fin 2) h2 (broadcastInDim ⟨2, ![1, C]⟩ (![1] : Fin 1 → Fin 2) h1 b) (ix2 r k)
      = b (ix1 k) :=
  (hostRows_apply h2 _ r k).trans (hostUnitRow_apply h1 b 0 k)

/-- The vector unit's row of a vector, repeated down R rows, reads at (r, k) the vector's entry k. -/
theorem vectorRow_apply (h1 : (⟨1, ![C]⟩ : Shape).ShapeCasts ⟨2, ![1, C]⟩)
    (h2 : (⟨2, ![1, C]⟩ : Shape).Broadcasts ⟨2, ![R, C]⟩)
    (b : (⟨1, ![C]⟩ : Shape).Idx → α) (r : Fin R) (k : Fin C) :
    broadcastTo ⟨2, ![R, C]⟩ (shapeCast ⟨2, ![1, C]⟩ b h1) h2 (ix2 r k) = b (ix1 k) :=
  (broadcastTo_1b_ab_apply _ h2 r k).trans (shapeCast_a_1a_apply b h1 0 k)

/-- A scalar broadcast on the host to any shape reads the scalar at every index. -/
theorem hostSplat_apply {s : Shape} (h : (⟨0, ![]⟩ : Shape).BroadcastsInDim s (![] : Fin 0 → Fin s.rank))
    (v : (⟨0, ![]⟩ : Shape).Idx → α) (j : s.Idx) :
    broadcastInDim s (![] : Fin 0 → Fin s.rank) h v j = v ix0 :=
  broadcastInDim_apply _ h v j ix0 fun a => a.elim0

end Cert.LibRowBias

end
-- ==== Proof.LibColumn.lean ====
/-
  Column forms of a row-wise reduction's result, read with coordinates, for any extents.

  A reduction over the second axis of an a × b array that keeps its dimensions leaves one number per row, stored as a
  column: an array of extent [a] is cast to [a, 1], and the column [a, 1] is then repeated along the rows to [a, b].
  * `shapeCast_a_a1_apply`: the cast [a] → [a, 1] read at (i, u) is the operand at i, whatever the unit coordinate u.
  * `shapeCast_a1_a_apply`: the cast back [a, 1] → [a] read at i is the operand at (i, 0).
  * `broadcastTo_a1_ab_apply`: the column [a, 1] repeated to [a, b] read at (p, c) is the column's entry of row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column repeated to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelLayerRead.lean ====
/-
  The kernel's layer read at an index, at the ideal values: it is the factored arrangement of the graph convolution
  (GraphConv.layerFactored) of the block's rows, the weight matrix and the bias row.

  Each stage of the body is read at a point `n` (and a feature `f`): a lane sum is a finite sum over the lane; a product
  into a zero accumulator is the sum over the contracted axis (over the 64 features for `x W` and `x (xᵀ H')`, over the
  2048 points for `xᵀ H'`); a change of float format is the identity; a row or a column repeated reads its one entry.
-/
import proofs.«151379_j33741263077528_1_alg».proof.Proof.KernelLayer
import proofs.«151379_j33741263077528_1_alg».proof.Proof.GraphConv
import proofs.«151379_j33741263077528_1_alg».proof.Proof.LibPlainDot
import proofs.«151379_j33741263077528_1_alg».proof.Proof.LibTransDot
import proofs.«151379_j33741263077528_1_alg».proof.Proof.LibRowBias
import proofs.«151379_j33741263077528_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelLayer

open Idealize.ShloMosaic Idealize.ShloMosaic.ValueIdx Idealize.SL.Sem Cert.KernelIdeal Cert.KernelIdeal.Gen

/-- The word of 1.0 denotes one. -/
theorem one_f32 : Ideal.ofBits .f32 0x3F800000#32 = 1 := IdealRules.sign_bit.ideal_onePat .f32

/-- The column sums at feature `k`: the sum over the 2048 points. -/
theorem colSums_apply (x : FVec Ideal S2048x64 .f32) (k : Fin 64) :
    colSums x (ix1 k) = ∑ m : Fin 2048, x (ix2 m k) := by
  unfold colSums
  refine (Ideal.multiReduction_add_single x 0x00000000#32 reduces_S2048x64_S64 (.inl rfl) rfl (ix1 k)).trans ?_
  refine Finset.sum_congr rfl fun m _ => congrArg x ?_
  funext a
  apply Fin.ext
  match a with
  | ⟨0, _⟩ => rfl
  | ⟨1, _⟩ => rfl

/-- The inner product of point `n` with a feature vector `s` repeated down the rows. -/
theorem rowDot_apply (x : FVec Ideal S2048x64 .f32) (xs : FVec Ideal S64 .f32) (n : Fin 2048) :
    multiReduction .add [1] S2048 (mulf x (broadcastTo S2048x64 (shapeCast S1x64 xs shapeCasts_S64_S1x64) broadcasts_S1x64_S2048x64))
        0x00000000#32 reduces_S2048x64_S2048 (.inl rfl) rfl (ix1 n)
      = ∑ k : Fin 64, x (ix2 n k) * xs (ix1 k) := by
  refine (Ideal.multiReduction_add_single _ 0x00000000#32 reduces_S2048x64_S2048 (.inl rfl) rfl (ix1 n)).trans ?_
  have key : ∀ k : Fin 64,
      mulf x (broadcastTo S2048x64 (shapeCast S1x64 xs shapeCasts_S64_S1x64) broadcasts_S1x64_S2048x64)
          (reduces_S2048x64_S2048.lift (ix1 n) k) = x (ix2 n k) * xs (ix1 k) := by
    intro k
    have hl : reduces_S2048x64_S2048.lift (ix1 n) k = ix2 n k := by
      funext a
      apply Fin.ext
      match a with
      | ⟨0, _⟩ => rfl
      | ⟨1, _⟩ => rfl
    rw [hl]
    show x (ix2 n k) * broadcastTo S2048x64 (shapeCast S1x64 xs shapeCasts_S64_S1x64) broadcasts_S1x64_S2048x64 (ix2 n k) = _
    rw [Cert.LibRowBias.vectorRow_apply]
  exact Finset.sum_congr rfl fun k _ => key k

/-- The guard at one element: a degree equal to zero is replaced by one. -/
theorem guard_elt (d : EReal) :
    Scalar.select (FloatOps.cmpf (F := Ideal) (φ := .f32) .oeq d (Scalar.ofBits (F := Ideal) .f32 0x00000000#32))
        (Scalar.ofBits (F := Ideal) .f32 0x3F800000#32) d = Cert.GraphConv.guard d := by
  have hs : ∀ b : BitVec 32, Scalar.ofBits (F := Ideal) .f32 b = Ideal.ofBits .f32 b := fun _ => rfl
  simp only [Scalar.select, Ideal.cmpf_def, hs, Ideal.cmp, Ideal.ofBits_zero_f32, one_f32, Cert.GraphConv.guard]
  by_cases h : d = 0
  · simp [h]
  · simp [h]

/-- The guarded degree of point `n`, from the block and a vector `s` of column sums: `guard (x_n · s + 1)`. -/
theorem guardedDegree_apply (x : FVec Ideal S2048x64 .f32) (xs : FVec Ideal S64 .f32) (n : Fin 2048) (u : Fin 1) :
    guardedDegree x xs (ix2 n u) = Cert.GraphConv.guard ((∑ k : Fin 64, x (ix2 n k) * xs (ix1 k)) + 1) := by
  unfold guardedDegree
  refine (guard_elt _).trans ?_
  refine congrArg Cert.GraphConv.guard ?_
  show shapeCast S2048x1 _ shapeCasts_S2048_S2048x1 (ix2 n u) + Ideal.ofBits .f32 0x3F800000#32 = _
  rw [Cert.LibColumn.shapeCast_a_a1_apply, rowDot_apply, one_f32]

/-- The layer's linear map at (n, f): the sum over the 64 input features (the two changes of float format are the identity). -/
theorem xw_apply (x : FVec Ideal S2048x64 .f32) (W : FVec Ideal S64x64 .f32) (n : Fin 2048) (f : Fin 64) :
    matmul dot_S2048x64_S64x64_S2048x64_1_0_0_1_n_n none (truncf .bf16 x bitsLt_bf16_f32) (truncf .bf16 W bitsLt_bf16_f32)
        (constant S2048x64 .f32 0x00000000#32) (ix2 n f) = ∑ k : Fin 64, x (ix2 n k) * W (ix2 k f) :=
  Cert.LibPlainDot.matmul_plain_zero_apply (M := 2048) (K := 64) (N := 64) none (truncf .bf16 x bitsLt_bf16_f32)
    (truncf .bf16 W bitsLt_bf16_f32) (ix2 n f)

/-- The scaled hidden rows at (n, f): `(x_n · W_f + b_f) · g_n^(-1/2)`. -/
theorem scaledHidden_apply (x : FVec Ideal S2048x64 .f32) (W : FVec Ideal S64x64 .f32) (b : FVec Ideal S1x64 .f32)
    (g : FVec Ideal S2048x1 .f32) (n : Fin 2048) (f : Fin 64) :
    scaledHidden x W b g (ix2 n f)
      = ((∑ k : Fin 64, x (ix2 n k) * W (ix2 k f)) + b (ix2 (0 : Fin 1) f)) * Ideal.rsqrt (g (ix2 n (0 : Fin 1))) := by
  unfold scaledHidden
  show (matmul dot_S2048x64_S64x64_S2048x64_1_0_0_1_n_n none (truncf .bf16 x bitsLt_bf16_f32) (truncf .bf16 W bitsLt_bf16_f32)
        (constant S2048x64 .f32 0x00000000#32) (ix2 n f) + broadcastTo S2048x64 b broadcasts_S1x64_S2048x64 (ix2 n f))
      * broadcastTo S2048x64 (rsqrt g) broadcasts_S2048x1_S2048x64 (ix2 n f) = _
  rw [xw_apply, broadcastTo_1b_ab_apply, Cert.LibColumn.broadcastTo_a1_ab_apply]
  rfl

/-- `xᵀ H'` at (k, f): the sum over the 2048 points. -/
theorem gram_apply (x hp : FVec Ideal S2048x64 .f32) (k f : Fin 64) :
    gram x hp (ix2 k f) = ∑ m : Fin 2048, x (ix2 m k) * hp (ix2 m f) :=
  Cert.LibTransDot.matmul_transLhs_zero_apply (K := 2048) (M := 64) (N := 64) none (truncf .bf16 x bitsLt_bf16_f32)
    (truncf .bf16 hp bitsLt_bf16_f32) (ix2 k f)

/-- The rest of the layer at (n, f), for any guarded degrees `g`. -/
theorem layerTail_apply (x : FVec Ideal S2048x64 .f32) (W : FVec Ideal S64x64 .f32) (b : FVec Ideal S1x64 .f32)
    (g : FVec Ideal S2048x1 .f32) (n : Fin 2048) (f : Fin 64) :
    layerTail x W b g (ix2 n f)
      = max (Ideal.rsqrt (g (ix2 n (0 : Fin 1)))
          * ((∑ k : Fin 64, x (ix2 n k) * ∑ m : Fin 2048, x (ix2 m k) * scaledHidden x W b g (ix2 m f))
              + scaledHidden x W b g (ix2 n f))) 0 := by
  unfold layerTail
  show max (broadcastTo S2048x64 (rsqrt g) broadcasts_S2048x1_S2048x64 (ix2 n f)
        * (matmul dot_S2048x64_S64x64_S2048x64_1_0_0_1_n_n none (truncf .bf16 x bitsLt_bf16_f32)
              (truncf .bf16 (gram x (scaledHidden x W b g)) bitsLt_bf16_f32) (constant S2048x64 .f32 0x00000000#32) (ix2 n f)
            + scaledHidden x W b g (ix2 n f))) (Ideal.ofBits .f32 0x00000000#32) = _
  rw [xw_apply, Cert.LibColumn.broadcastTo_a1_ab_apply, Ideal.ofBits_zero_f32]
  simp only [gram_apply]
  rfl

/-- ONE LAYER of the body at (n, f) is the factored arrangement of the graph convolution of the block's rows. -/
theorem layer_apply (x : FVec Ideal S2048x64 .f32) (W : FVec Ideal S64x64 .f32) (b : FVec Ideal S1x64 .f32)
    (n : Fin 2048) (f : Fin 64) :
    layer x W b (ix2 n f)
      = Cert.GraphConv.layerFactored (fun (p : Fin 2048) (k : Fin 64) => x (ix2 p k)) (fun (k g : Fin 64) => W (ix2 k g))
          (fun (g : Fin 64) => b (ix2 (0 : Fin 1) g)) n f := by
  unfold layer
  rw [layerTail_apply]
  simp only [scaledHidden_apply, guardedDegree_apply, colSums_apply]
  rfl

/-- The layer as a function of the point and the feature. -/
theorem layer_eq (x : FVec Ideal S2048x64 .f32) (W : FVec Ideal S64x64 .f32) (b : FVec Ideal S1x64 .f32) :
    (fun (p : Fin 2048) (k : Fin 64) => layer x W b (ix2 p k))
      = Cert.GraphConv.layerFactored (fun (p : Fin 2048) (k : Fin 64) => x (ix2 p k)) (fun (k g : Fin 64) => W (ix2 k g))
          (fun (g : Fin 64) => b (ix2 (0 : Fin 1) g)) :=
  funext fun p => funext fun k => layer_apply x W b p k

/-- THREE LAYERS of the body at (n, f): the factored arrangement three times, each fed the one before. -/
theorem layer3_apply (x : FVec Ideal S2048x64 .f32) (W0 W1 W2 : FVec Ideal S64x64 .f32) (b0 b1 b2 : FVec Ideal S1x64 .f32)
    (n : Fin 2048) (f : Fin 64) :
    layer (layer (layer x W0 b0) W1 b1) W2 b2 (ix2 n f)
      = Cert.GraphConv.three Cert.GraphConv.layerFactored (fun (p : Fin 2048) (k : Fin 64) => x (ix2 p k))
          (fun (k g : Fin 64) => W0 (ix2 k g)) (fun (g : Fin 64) => b0 (ix2 (0 : Fin 1) g))
          (fun (k g : Fin 64) => W1 (ix2 k g)) (fun (g : Fin 64) => b1 (ix2 (0 : Fin 1) g))
          (fun (k g : Fin 64) => W2 (ix2 k g)) (fun (g : Fin 64) => b2 (ix2 (0 : Fin 1) g)) n f := by
  rw [layer_apply, layer_eq, layer_eq]
  rfl

end Cert.KernelLayer

end
-- ==== Proof.Net.lean ====
/-
  The whole network as ONE function of the seven argument arrays, index by index: at (c, n, f) — batch `c`, point `n`,
  feature `f` — three graph-convolution layers of the `c`-th cloud of points (the 2048×64 slab `x (c, ·, ·)`), with the
  three weight matrices and bias vectors, in one of the two arrangements `L` (GraphConv.layerDense or
  GraphConv.layerFactored). Both programs' results are stated with this one term.
-/
import proofs.«151379_j33741263077528_1_alg».proof.Proof.GraphConv
import Idealize.ShloMosaic.Lib.ValueIdx

noncomputable section

namespace Cert.Net

open Idealize.ShloMosaic Idealize.ShloMosaic.ValueIdx

/-- The result array of three layers in the arrangement `L`. -/
def net (L : (Fin 2048 → Fin 64 → EReal) → (Fin 64 → Fin 64 → EReal) → (Fin 64 → EReal) → Fin 2048 → Fin 64 → EReal)
    (x : (⟨3, ![16, 2048, 64]⟩ : Shape).Idx → EReal)
    (W0 : (⟨2, ![64, 64]⟩ : Shape).Idx → EReal) (b0 : (⟨1, ![64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal) :
    (⟨3, ![16, 2048, 64]⟩ : Shape).Idx → EReal :=
  fun i => Cert.GraphConv.three L (fun (p : Fin 2048) (k : Fin 64) => x (ix3 (i 0) p k))
    (fun (k g : Fin 64) => W0 (ix2 k g)) (fun (g : Fin 64) => b0 (ix1 g))
    (fun (k g : Fin 64) => W1 (ix2 k g)) (fun (g : Fin 64) => b1 (ix1 g))
    (fun (k g : Fin 64) => W2 (ix2 k g)) (fun (g : Fin 64) => b2 (ix1 g)) (i 1) (i 2)

/-- At an index written by its coordinates. -/
theorem net_ix3 (L : (Fin 2048 → Fin 64 → EReal) → (Fin 64 → Fin 64 → EReal) → (Fin 64 → EReal) → Fin 2048 → Fin 64 → EReal)
    (x : (⟨3, ![16, 2048, 64]⟩ : Shape).Idx → EReal)
    (W0 : (⟨2, ![64, 64]⟩ : Shape).Idx → EReal) (b0 : (⟨1, ![64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (c : Fin 16) (n : Fin 2048) (f : Fin 64) :
    net L x W0 b0 W1 b1 W2 b2 (ix3 c n f)
      = Cert.GraphConv.three L (fun (p : Fin 2048) (k : Fin 64) => x (ix3 c p k))
          (fun (k g : Fin 64) => W0 (ix2 k g)) (fun (g : Fin 64) => b0 (ix1 g))
          (fun (k g : Fin 64) => W1 (ix2 k g)) (fun (g : Fin 64) => b1 (ix1 g))
          (fun (k g : Fin 64) => W2 (ix2 k g)) (fun (g : Fin 64) => b2 (ix1 g)) n f := rfl

end Cert.Net

end
-- ==== Proof.KernelValue.lean ====
/-
  The idealized kernel's result array, whole: at every index (c, n, f) it is three graph-convolution layers, in the
  factored arrangement, of the `c`-th cloud of points (Net.net GraphConv.layerFactored of the seven arguments).

  The grid has one point per cloud. Point `t` stages the `t`-th 2048×64 slab of `x` (window 0), the three whole weight
  matrices (windows 1, 3, 5) and the three biases as 1×64 rows (windows 2, 4, 6: the host reshapes each length-64 bias to a
  row before the region), runs the body — three layers of the slab, KernelLayerRead — and writes the result back as the
  `t`-th slab of the output (window 7). The sixteen slabs tile the output array, so the array after the run is that
  function of the arguments everywhere.
-/
import proofs.«151379_j33741263077528_1_alg».proof.Proof.Gen.KernelIdeal.Value
import proofs.«151379_j33741263077528_1_alg».proof.Proof.KernelLayerRead
import proofs.«151379_j33741263077528_1_alg».proof.Proof.Net
import Idealize.ShloMosaic.Lib.Pipeline.Value
import Idealize.ShloMosaic.Lib.ValueIdx
import Idealize.ShloMosaic.Lib.ValueLayout
import Idealize.ShloMosaic.Lib.StableHlo.Run

noncomputable section

namespace Cert.KernelValue

open Cert.KernelIdeal Cert.KernelIdeal.Gen Idealize.ShloMosaic Idealize.ShloMosaic.ValueIdx Idealize.ShloMosaic.TcCoe Idealize.SL.Sem
open Idealize.ShloMosaic.Pipeline (Dat)

/-! ## A stored block against the whole-array function -/

/-- What the body stores at a block index `y`, against the network at an array index `i` of the same point and feature,
    when the staged slab is the `i 0`-th cloud and the staged weights and bias rows are the arguments'. -/
theorem stored_apply (x0 : Vec Ideal S1x2048x64 .f32)
    (W0 : Vec Ideal S64x64 .f32) (b0 : Vec Ideal S1x64 .f32) (W1 : Vec Ideal S64x64 .f32) (b1 : Vec Ideal S1x64 .f32)
    (W2 : Vec Ideal S64x64 .f32) (b2 : Vec Ideal S1x64 .f32)
    (X : S16x2048x64.Idx → EReal) (A0 : S64x64.Idx → EReal) (B0 : S64.Idx → EReal) (A1 : S64x64.Idx → EReal)
    (B1 : S64.Idx → EReal) (A2 : S64x64.Idx → EReal) (B2 : S64.Idx → EReal)
    (y : S1x2048x64.Idx) (i : S16x2048x64.Idx) (h1 : (i 1).val = (y 1).val) (h2 : (i 2).val = (y 2).val)
    (hx : ∀ (p : Fin 2048) (k : Fin 64), x0 (ix3 (0 : Fin 1) p k) = X (ix3 (i 0) p k))
    (hW0 : ∀ k g : Fin 64, W0 (ix2 k g) = A0 (ix2 k g)) (hb0 : ∀ g : Fin 64, b0 (ix2 (0 : Fin 1) g) = B0 (ix1 g))
    (hW1 : ∀ k g : Fin 64, W1 (ix2 k g) = A1 (ix2 k g)) (hb1 : ∀ g : Fin 64, b1 (ix2 (0 : Fin 1) g) = B1 (ix1 g))
    (hW2 : ∀ k g : Fin 64, W2 (ix2 k g) = A2 (ix2 k g)) (hb2 : ∀ g : Fin 64, b2 (ix2 (0 : Fin 1) g) = B2 (ix1 g)) :
    shapeCast S1x2048x64
        (Cert.KernelLayer.layer (Cert.KernelLayer.layer (Cert.KernelLayer.layer
          (shapeCast S2048x64 x0 shapeCasts_S1x2048x64_S2048x64) W0 (shapeCast S1x64 b0 shapeCasts_S1x64_S1x64))
          W1 (shapeCast S1x64 b1 shapeCasts_S1x64_S1x64)) W2 (shapeCast S1x64 b2 shapeCasts_S1x64_S1x64))
        shapeCasts_S2048x64_S1x2048x64 y
      = Cert.Net.net Cert.GraphConv.layerFactored X A0 B0 A1 B1 A2 B2 i := by
  obtain ⟨u, n, f, rfl⟩ : ∃ (u : Fin 1) (n : Fin 2048) (f : Fin 64), y = ix3 u n f := ⟨y 0, y 1, y 2, eq_ix3 y⟩
  obtain ⟨q, n', f', rfl⟩ : ∃ (q : Fin 16) (n' : Fin 2048) (f' : Fin 64), i = ix3 q n' f' := ⟨i 0, i 1, i 2, eq_ix3 i⟩
  have en : n' = n := Fin.ext h1
  have ef : f' = f := Fin.ext h2
  subst en ef
  rw [shapeCast_ab_1ab_apply, Cert.KernelLayer.layer3_apply, Cert.Net.net_ix3]
  have eX : (fun (p : Fin 2048) (k : Fin 64) => shapeCast S2048x64 x0 shapeCasts_S1x2048x64_S2048x64 (ix2 p k))
      = fun (p : Fin 2048) (k : Fin 64) => X (ix3 q p k) :=
    funext fun p => funext fun k => (shapeCast_1ab_ab_apply x0 shapeCasts_S1x2048x64_S2048x64 p k).trans (hx p k)
  have eW0 : (fun k g : Fin 64 => W0 (ix2 k g)) = fun k g : Fin 64 => A0 (ix2 k g) := funext fun k => funext fun g => hW0 k g
  have eW1 : (fun k g : Fin 64 => W1 (ix2 k g)) = fun k g : Fin 64 => A1 (ix2 k g) := funext fun k => funext fun g => hW1 k g
  have eW2 : (fun k g : Fin 64 => W2 (ix2 k g)) = fun k g : Fin 64 => A2 (ix2 k g) := funext fun k => funext fun g => hW2 k g
  have eb0 : (fun g : Fin 64 => shapeCast S1x64 b0 shapeCasts_S1x64_S1x64 (ix2 (0 : Fin 1) g)) = fun g : Fin 64 => B0 (ix1 g) :=
    funext fun g => (congrFun (shapeCast_self b0 shapeCasts_S1x64_S1x64) _).trans (hb0 g)
  have eb1 : (fun g : Fin 64 => shapeCast S1x64 b1 shapeCasts_S1x64_S1x64 (ix2 (0 : Fin 1) g)) = fun g : Fin 64 => B1 (ix1 g) :=
    funext fun g => (congrFun (shapeCast_self b1 shapeCasts_S1x64_S1x64) _).trans (hb1 g)
  have eb2 : (fun g : Fin 64 => shapeCast S1x64 b2 shapeCasts_S1x64_S1x64 (ix2 (0 : Fin 1) g)) = fun g : Fin 64 => B2 (ix1 g) :=
    funext fun g => (congrFun (shapeCast_self b2 shapeCasts_S1x64_S1x64) _).trans (hb2 g)
  rw [eX, eW0, eW1, eW2, eb0, eb1, eb2]

/-! ## The launch: which block of which array each window stages -/

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the sixteen grid points: the slab windows (0 and 7) move together along the
    batch axis and stay at the origin on the other two; every other window stays at the origin. -/
theorem index_facts : ∀ t : Fin cfg0.N,
    win0_7.index t (0 : Fin 3) < 16 ∧ win0_7.index t (1 : Fin 3) = 0 ∧ win0_7.index t (2 : Fin 3) = 0
    ∧ win0_0.index t (0 : Fin 3) = win0_7.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every slab of the output is some grid point's. -/
theorem index_onto : ∀ q : Fin 16, ∃ t : Fin cfg0.N, win0_7.index t = ![q.val, 0, 0] :=
  (by decide +kernel : ∀ q : Fin 16, ∃ t : Fin grid0.N, win0_7.index t = ![q.val, 0, 0])

/-- A bias row as the region finds it: the host's reshape of the length-64 argument. -/
theorem row0 (c : Dev nD) : (V m c main_v0 : S1x64.Idx → EReal)
    = shapeCast S1x64 (m ((c : Thread nD τ).loc main_arg2)) shapeCasts_S64_S1x64 := by
  dsimp only [Gen.V, Gen.hostOps0]; after_results; rfl
theorem row1 (c : Dev nD) : (V m c main_v1 : S1x64.Idx → EReal)
    = shapeCast S1x64 (m ((c : Thread nD τ).loc main_arg4)) shapeCasts_S64_S1x64 := by
  dsimp only [Gen.V, Gen.hostOps0]; after_results; rfl
theorem row2 (c : Dev nD) : (V m c main_v2 : S1x64.Idx → EReal)
    = shapeCast S1x64 (m ((c : Thread nD τ).loc main_arg6)) shapeCasts_S64_S1x64 := by
  dsimp only [Gen.V, Gen.hostOps0]; after_results; rfl

/-- The whole-array function of the arguments as the region finds them. -/
abbrev result (c : Dev nD) : S16x2048x64.Idx → EReal :=
  Cert.Net.net Cert.GraphConv.layerFactored (V m c main_arg0) (V m c main_arg1) (m ((c : Thread nD τ).loc main_arg2))
    (V m c main_arg3) (m ((c : Thread nD τ).loc main_arg4)) (V m c main_arg5) (m ((c : Thread nD τ).loc main_arg6))

/-! ## What each grid point writes back, and the whole array -/

/-- WHAT POINT `t` WRITES BACK is block `t` of `result`: the body's three layers of the staged slab are the network at the
    slab's own indices, the staged weights and bias rows being the arguments'. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero3]
  simp only [View.ld_unit_zero (S := S1x2048x64) zero3, View.ld_unit_zero (S := S64x64) zero2, View.ld_unit_zero (S := S1x64) zero2]
  rw [Cert.KernelLayer.stored_eq]
  obtain ⟨e7, e71, e72, e00, e01, e02, e10, e11, e20, e21, e30, e31, e40, e41, e50, e51, e60, e61⟩ := index_facts t
  funext y
  refine stored_apply (iblk m c 0 t) (iblk m c 1 t) (iblk m c 2 t) (iblk m c 3 t) (iblk m c 4 t) (iblk m c 5 t) (iblk m c 6 t)
    (V m c main_arg0) (V m c main_arg1) (m ((c : Thread nD τ).loc main_arg2)) (V m c main_arg3) (m ((c : Thread nD τ).loc main_arg4))
    (V m c main_arg5) (m ((c : Thread nD τ).loc main_arg6)) y (((cfg0.win 7).blk t).view.emb y) ?_ ?_ ?_ ?_ ?_ ?_ ?_ ?_ ?_
  · show win0_7.index t (1 : Fin 3) * 2048 + 1 * (y 1).val = (y 1).val
    omega
  · show win0_7.index t (2 : Fin 3) * 64 + 1 * (y 2).val = (y 2).val
    omega
  · intro p k
    show V m c main_arg0 (((cfg0.win 0).blk t).view.emb (ix3 (0 : Fin 1) p k))
      = V m c main_arg0 (ix3 ((((cfg0.win 7).blk t).view.emb y) 0) p k)
    refine congrArg _ (funext fun a => Fin.ext ?_)
    match a with
    | ⟨0, _⟩ =>
      show win0_0.index t (0 : Fin 3) * 1 + 1 * 0 = win0_7.index t (0 : Fin 3) * 1 + 1 * (y 0).val
      have hy : (y 0).val < 1 := (y 0).isLt
      omega
    | ⟨1, _⟩ => show win0_0.index t (1 : Fin 3) * 2048 + 1 * p.val = p.val; omega
    | ⟨2, _⟩ => show win0_0.index t (2 : Fin 3) * 64 + 1 * k.val = k.val; omega
  · intro k g
    show V m c main_arg1 (((cfg0.win 1).blk t).view.emb (ix2 k g)) = V m c main_arg1 (ix2 k g)
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * g.val = g.val; omega
  · intro g
    show V m c main_v0 (((cfg0.win 2).blk t).view.emb (ix2 (0 : Fin 1) g)) = m ((c : Thread nD τ).loc main_arg2) (ix1 g)
    have he : ((cfg0.win 2).blk t).view.emb (ix2 (0 : Fin 1) g) = ix2 (0 : Fin 1) g := by
      refine funext fun a => Fin.ext ?_
      match a with
      | ⟨0, _⟩ => show win0_2.index t (0 : Fin 2) * 1 + 1 * 0 = 0; omega
      | ⟨1, _⟩ => show win0_2.index t (1 : Fin 2) * 64 + 1 * g.val = g.val; omega
    rw [he, row0]
    exact shapeCast_a_1a_apply _ _ 0 g
  · intro k g
    show V m c main_arg3 (((cfg0.win 3).blk t).view.emb (ix2 k g)) = V m c main_arg3 (ix2 k g)
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * g.val = g.val; omega
  · intro g
    show V m c main_v1 (((cfg0.win 4).blk t).view.emb (ix2 (0 : Fin 1) g)) = m ((c : Thread nD τ).loc main_arg4) (ix1 g)
    have he : ((cfg0.win 4).blk t).view.emb (ix2 (0 : Fin 1) g) = ix2 (0 : Fin 1) g := by
      refine funext fun a => Fin.ext ?_
      match a with
      | ⟨0, _⟩ => show win0_4.index t (0 : Fin 2) * 1 + 1 * 0 = 0; omega
      | ⟨1, _⟩ => show win0_4.index t (1 : Fin 2) * 64 + 1 * g.val = g.val; omega
    rw [he, row1]
    exact shapeCast_a_1a_apply _ _ 0 g
  · intro k g
    show V m c main_arg5 (((cfg0.win 5).blk t).view.emb (ix2 k g)) = V m c main_arg5 (ix2 k g)
    refine congrArg _ (funext fun a => Fin.ext ?_)
    match a with
    | ⟨0, _⟩ => show win0_5.index t (0 : Fin 2) * 64 + 1 * k.val = k.val; omega
    | ⟨1, _⟩ => show win0_5.index t (1 : Fin 2) * 64 + 1 * g.val = g.val; omega
  · intro g
    show V m c main_v2 (((cfg0.win 6).blk t).view.emb (ix2 (0 : Fin 1) g)) = m ((c : Thread nD τ).loc main_arg6) (ix1 g)
    have he : ((cfg0.win 6).blk t).view.emb (ix2 (0 : Fin 1) g) = ix2 (0 : Fin 1) g := by
      refine funext fun a => Fin.ext ?_
      match a with
      | ⟨0, _⟩ => show win0_6.index t (0 : Fin 2) * 1 + 1 * 0 = 0; omega
      | ⟨1, _⟩ => show win0_6.index t (1 : Fin 2) * 64 + 1 * g.val = g.val; omega
    rw [he, row2]
    exact shapeCast_a_1a_apply _ _ 0 g

/-- An index of the output array is in point `t`'s block iff each coordinate is in the block's range on its axis. -/
theorem mem_blk (t : Fin cfg0.N) (i : S16x2048x64.Idx) :
    i ∈ ((cfg0.win 7).blk t).view.set ↔ ∀ a : Fin 3, win0_7.index t a * S1x2048x64.size a ≤ (i a).val
      ∧ (i a).val < win0_7.index t a * S1x2048x64.size a + S1x2048x64.size a := by
  show i ∈ ((View.whole main_v3).slice (win0_7.rect t)).set ↔ _
  rw [View.set_slice_whole, Rect.mem_set_unit]
  exact Iff.rfl

/-- The sixteen slabs cover the output array: index (c, n, f) lies in the block of the point that stages cloud `c`. -/
theorem cover (i : S16x2048x64.Idx) : ∃ t : Fin cfg0.N, (cfg0.win 7).flush t = true ∧ i ∈ ((cfg0.win 7).blk t).view.set := by
  have hi0 : (i 0).val < 16 := (i 0).isLt
  have hi1 : (i 1).val < 2048 := (i 1).isLt
  have hi2 : (i 2).val < 64 := (i 2).isLt
  obtain ⟨t, ht⟩ := index_onto ⟨(i 0).val, hi0⟩
  have q0 : win0_7.index t (0 : Fin 3) = (i 0).val := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 64 ≤ (i 2).val ∧ (i 2).val < win0_7.index t (2 : Fin 3) * 64 + 64; omega

/-- THE ARRAY after the run: the network, in the factored arrangement, of the seven arguments. -/
theorem final (c : Dev nD) : (dats m 0 c).arrAt 7 cfg0.N
    = Cert.Net.net Cert.GraphConv.layerFactored (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  rw [(dats m 0 c).arrAt_eq_of_cover 7 (result m c) (fun t _ => flushed_eq m c t) cover]
  unfold result
  rw [V_main_arg0, V_main_arg1, V_main_arg3, V_main_arg5]

/-- The frame run re-posted: the result array at the network of the arguments, the arguments unchanged. -/
theorem run : θ_run defs (onTc (τ := τ) (main (F := Ideal))) ⟨m, fun _ => 0, ρ⟩ fun r => ∀ c : Dev nD,
      r.2.mem ((c : Thread nD τ).loc main_v3)
        = Cert.Net.net Cert.GraphConv.layerFactored (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelValue

end
-- ==== Proof.RefLayer.lean ====
/-
  One layer of the dense arrangement, as the reference program spells it: the edge weights `y yᵀ + I` per cloud, the
  degrees (row sums of the weights) with a zero degree replaced by one, their power `-1/2`, the weights scaled by it along
  rows and along columns, the linear map `y W + b`, and the maximum with zero of the product of the two. Definitions only;
  each is the chain of the program's pure operations in its order, stated for any float instance.
-/
import proofs.«151379_j33741263077528_1_alg».proof.Proof.Gen.ReferenceIdeal

noncomputable section

namespace Cert.RefLayer

open Idealize.ShloMosaic Cert.ReferenceIdeal Cert.ReferenceIdeal.Gen

variable {F : FTy → Type} [FloatOps F]

/-- The edge weights: the inner products of the rows of each cloud, plus the identity matrix. -/
def refWeight (y : FVec F S16x2048x64 .f32) : FVec F S16x2048x2048 .f32 :=
  have v0 : FVec F S16x2048x2048 .f32 := Host.dotGeneral dot_S16x2048x64_S16x2048x64_S16x2048x2048_2_2_1_1_0_0 none y y
  have v1 : IVec S2048x2048 32 := iotaInDim S2048x2048 32 0
  have v2 : IVec S2048x2048 32 := iotaInDim S2048x2048 32 1
  have c : IVec S_ 32 := constantI S_ 32 0#32
  have v3 : IVec S2048x2048 32 := broadcastInDim S2048x2048 ![] bcast_S_S2048x2048 c
  have v4 : IVec S2048x2048 32 := addi v1 v3
  have v5 : IVec S2048x2048 1 := cmpi .eq v4 v2
  have v6 : FVec F S2048x2048 .f32 := uitofp .f32 v5
  have v7 : FVec F S1x2048x2048 .f32 := broadcastInDim S1x2048x2048 ![1, 2] bcast_S2048x2048_S1x2048x2048_1_2 v6
  have v8 : FVec F S16x2048x2048 .f32 := broadcastInDim S16x2048x2048 ![0, 1, 2] bcast_S1x2048x2048_S16x2048x2048_0_1_2 v7
  addf v0 v8

/-- The degrees (a zero replaced by one) to the power `-1/2`. -/
def refScale (y : FVec F S16x2048x64 .f32) : FVec F S16x2048 .f32 :=
  have v9 : FVec F S16x2048x2048 .f32 := refWeight y
  have cst : FVec F S_ .f32 := constant S_ .f32 0x00000000#32
  have v10 : FVec F S16x2048 .f32 := Host.reduceAdd v9 cst reducesTo_S16x2048x2048_S16x2048_d2 h_S_
  have cst_0 : FVec F S_ .f32 := constant S_ .f32 0x00000000#32
  have v11 : FVec F S16x2048 .f32 := broadcastInDim S16x2048 ![] bcast_S_S16x2048 cst_0
  have v12 : IVec S16x2048 1 := cmpf .oeq v10 v11
  have cst_1 : FVec F S_ .f32 := constant S_ .f32 0x3F800000#32
  have v13 : FVec F S16x2048 .f32 := broadcastInDim S16x2048 ![] bcast_S_S16x2048 cst_1
  have v14 : FVec F S16x2048 .f32 := select v12 v13 v10
  have cst_2 : FVec F S_ .f32 := constant S_ .f32 0xBF000000#32
  have v15 : FVec F S16x2048 .f32 := broadcastInDim S16x2048 ![] bcast_S_S16x2048 cst_2
  Host.powf v14 v15

/-- The normalised weights: each weight times the scale of its row, times the scale of its column. -/
def refAdj (y : FVec F S16x2048x64 .f32) : FVec F S16x2048x2048 .f32 :=
  have v9 : FVec F S16x2048x2048 .f32 := refWeight y
  have v16 : FVec F S16x2048 .f32 := refScale y
  have v17 : FVec F S16x2048x1 .f32 := broadcastInDim S16x2048x1 ![0, 1] bcast_S16x2048_S16x2048x1_0_1 v16
  have v18 : FVec F S16x2048x2048 .f32 := broadcastInDim S16x2048x2048 ![0, 1, 2] bcast_S16x2048x1_S16x2048x2048_0_1_2 v17
  have v19 : FVec F S16x2048x2048 .f32 := mulf v9 v18
  have v20 : FVec F S16x1x2048 .f32 := broadcastInDim S16x1x2048 ![0, 2] bcast_S16x2048_S16x1x2048_0_2 v16
  have v21 : FVec F S16x2048x2048 .f32 := broadcastInDim S16x2048x2048 ![0, 1, 2] bcast_S16x1x2048_S16x2048x2048_0_1_2 v20
  mulf v19 v21

/-- The linear map `y W + b`, one row per point. -/
def refHidden (y : FVec F S16x2048x64 .f32) (W : FVec F S64x64 .f32) (b : FVec F S64 .f32) : FVec F S16x2048x64 .f32 :=
  have v23 : FVec F S16x2048x64 .f32 := Host.dotGeneral dot_S16x2048x64_S64x64_S16x2048x64_2_0_01_1_n_n none y W
  have v24 : FVec F S1x1x64 .f32 := broadcastInDim S1x1x64 ![2] bcast_S64_S1x1x64_2 b
  have v25 : FVec F S16x2048x64 .f32 := broadcastInDim S16x2048x64 ![0, 1, 2] bcast_S1x1x64_S16x2048x64_0_1_2 v24
  addf v23 v25

/-- One layer: the maximum with zero of the normalised weights times the linear map. -/
def refLayer (y : FVec F S16x2048x64 .f32) (W : FVec F S64x64 .f32) (b : FVec F S64 .f32) : FVec F S16x2048x64 .f32 :=
  maximumf (Host.dotGeneral dot_S16x2048x2048_S16x2048x64_S16x2048x64_2_1_1_2_0_0 none (refAdj y) (refHidden y W b))
    (broadcastInDim S16x2048x64 ![] bcast_S_S16x2048x64 (constant S_ .f32 0x00000000#32))

end Cert.RefLayer

end
-- ==== Proof.RefAdjRead.lean ====
/-
  The reference layer's normalised weights, read at an entry, on the extended reals.

  For cloud `c` write `Y p k = y (c, p, k)`. Entry (c, n, m) of the batched product `y yᵀ` is the inner product of rows n
  and m of `Y` (`gram_apply`); the identity matrix, built from two iotas compared for equality, is one on the diagonal and
  zero off it (`eye_apply`); so the weights are `weight Y n m` (`refWeight_apply`). Their sum over the last axis from the
  zero word is the degree `degDense Y n` (`refDeg_apply`). Where the degree compares equal to zero the program takes
  one, else the degree: the guard; the exponent word 0xBF000000 is minus one half; so the scale is `scaleDense Y n`
  (`refScale_apply`). The scale is spread along rows and along columns by two broadcasts each (`bcastRow_apply`,
  `bcastCol_apply`), and the normalised weight is `(w_nm · d_n) · d_m` (`refAdj_apply`).
-/
import proofs.«151379_j33741263077528_1_alg».proof.Proof.RefLayer
import proofs.«151379_j33741263077528_1_alg».proof.Proof.GraphConv
import Idealize.ShloMosaic.Lib.ValueIdx
import Idealize.ShloMosaic.Lib.IdealHost
import Idealize.ShloMosaic.Lib.Affine
import Idealize.ShloMosaic.Lib.Pipeline.Value
import Idealize.ShloMosaic.PureOps.Ideal.Laws

noncomputable section

namespace Cert.RefLayer

open Idealize.ShloMosaic Idealize.ShloMosaic.ValueIdx Cert.ReferenceIdeal Cert.ReferenceIdeal.Gen

/-! ## Words and comparisons as extended reals -/

private theorem ofBool_eq_one (b : Bool) : BitVec.ofBool b = 1#1 ↔ b = true := by cases b <;> decide

/-- The f32 word 0xBF000000 is minus one half. -/
private theorem ofBits_neg_half_f32 : Ideal.ofBits .f32 0xBF000000#32 = ((-(1 / 2) : ℝ) : EReal) := by
  simp [Ideal.ofBits, Ideal.ieee, -EReal.coe_mul, -EReal.coe_neg]; norm_num

/-- A number below 2048 is its own 32-bit word. -/
private theorem toNat_ofNat_fin (n : Fin 2048) : (BitVec.ofNat 32 n.val).toNat = n.val := by
  rw [BitVec.toNat_ofNat]; exact Nat.mod_eq_of_lt (by have := n.isLt; omega)

/-! ## The batched product `y yᵀ` read at an entry -/

private theorem lhs0 (i : S16x2048x2048.Idx) (q : dot_S16x2048x64_S16x2048x64_S16x2048x2048_2_2_1_1_0_0.contr.Idx) : (dot_S16x2048x64_S16x2048x64_S16x2048x2048_2_2_1_1_0_0.lhsIdx i q 0).val = (i 0).val := by
  unfold DotDims.lhsIdx
  rw [dif_pos (show (0 : Fin S16x2048x64.rank) ∈ dot_S16x2048x64_S16x2048x64_S16x2048x2048_2_2_1_1_0_0.lhsBatch from List.mem_singleton.mpr rfl)]
  rfl
private theorem lhs1 (i : S16x2048x2048.Idx) (q : dot_S16x2048x64_S16x2048x64_S16x2048x2048_2_2_1_1_0_0.contr.Idx) : (dot_S16x2048x64_S16x2048x64_S16x2048x2048_2_2_1_1_0_0.lhsIdx i q 1).val = (i 1).val := by
  unfold DotDims.lhsIdx
  rw [dif_neg (show ¬(1 : Fin S16x2048x64.rank) ∈ dot_S16x2048x64_S16x2048x64_S16x2048x2048_2_2_1_1_0_0.lhsBatch by show ¬ (1 : Fin 3) ∈ ([0] : List (Fin 3)); decide),
    dif_pos (show (1 : Fin S16x2048x64.rank) ∈ dot_S16x2048x64_S16x2048x64_S16x2048x2048_2_2_1_1_0_0.lhsNonContracting from List.mem_singleton.mpr rfl)]
  rfl
private theorem lhs2 (i : S16x2048x2048.Idx) (q : dot_S16x2048x64_S16x2048x64_S16x2048x2048_2_2_1_1_0_0.contr.Idx) : (dot_S16x2048x64_S16x2048x64_S16x2048x2048_2_2_1_1_0_0.lhsIdx i q 2).val = (q ⟨0, Nat.one_pos⟩).val :=
  dot_S16x2048x64_S16x2048x64_S16x2048x2048_2_2_1_1_0_0.lhsIdx_val_of_single rfl i q
private theorem rhs0 (i : S16x2048x2048.Idx) (q : dot_S16x2048x64_S16x2048x64_S16x2048x2048_2_2_1_1_0_0.contr.Idx) : (dot_S16x2048x64_S16x2048x64_S16x2048x2048_2_2_1_1_0_0.rhsIdx i q 0).val = (i 0).val := by
  unfold DotDims.rhsIdx
  rw [dif_pos (show (0 : Fin S16x2048x64.rank) ∈ dot_S16x2048x64_S16x2048x64_S16x2048x2048_2_2_1_1_0_0.rhsBatch from List.mem_singleton.mpr rfl)]
  rfl
private theorem rhs1 (i : S16x2048x2048.Idx) (q : dot_S16x2048x64_S16x2048x64_S16x2048x2048_2_2_1_1_0_0.contr.Idx) : (dot_S16x2048x64_S16x2048x64_S16x2048x2048_2_2_1_1_0_0.rhsIdx i q 1).val = (i 2).val := by
  unfold DotDims.rhsIdx
  rw [dif_neg (show ¬(1 : Fin S16x2048x64.rank) ∈ dot_S16x2048x64_S16x2048x64_S16x2048x2048_2_2_1_1_0_0.rhsBatch by show ¬ (1 : Fin 3) ∈ ([0] : List (Fin 3)); decide),
    dif_pos (show (1 : Fin S16x2048x64.rank) ∈ dot_S16x2048x64_S16x2048x64_S16x2048x2048_2_2_1_1_0_0.rhsNonContracting from List.mem_singleton.mpr rfl)]
  rfl
private theorem rhs2 (i : S16x2048x2048.Idx) (q : dot_S16x2048x64_S16x2048x64_S16x2048x2048_2_2_1_1_0_0.contr.Idx) : (dot_S16x2048x64_S16x2048x64_S16x2048x2048_2_2_1_1_0_0.rhsIdx i q 2).val = (q ⟨0, Nat.one_pos⟩).val :=
  dot_S16x2048x64_S16x2048x64_S16x2048x2048_2_2_1_1_0_0.rhsIdx_val_of_single rfl i q

/-- Entry (c, n, m) of the batched product is the inner product of rows n and m of cloud c. -/
theorem gram_apply (y : FVec Ideal S16x2048x64 .f32) (c : Fin 16) (n m : Fin 2048) :
    Host.dotGeneral (F := Ideal) dot_S16x2048x64_S16x2048x64_S16x2048x2048_2_2_1_1_0_0 none y y (ix3 c n m) = ∑ k : Fin 64, y (ix3 c n k) * y (ix3 c m k) := by
  simp only [Host.dotGeneral]
  rw [Ideal.dotGeneral_apply, ← Equiv.sum_comp (contrEquiv1 dot_S16x2048x64_S16x2048x64_S16x2048x2048_2_2_1_1_0_0 64 rfl rfl).symm]
  refine Finset.sum_congr rfl fun k _ => ?_
  have hk := contrEquiv1_symm_val dot_S16x2048x64_S16x2048x64_S16x2048x2048_2_2_1_1_0_0 64 rfl rfl k
  have el : dot_S16x2048x64_S16x2048x64_S16x2048x2048_2_2_1_1_0_0.lhsIdx (ix3 c n m) ((contrEquiv1 dot_S16x2048x64_S16x2048x64_S16x2048x2048_2_2_1_1_0_0 64 rfl rfl).symm k) = ix3 c n k := funext fun a => Fin.ext (by
    match a with
    | ⟨0, _⟩ => exact lhs0 _ _
    | ⟨1, _⟩ => exact lhs1 _ _
    | ⟨2, _⟩ => exact (lhs2 _ _).trans hk)
  have er : dot_S16x2048x64_S16x2048x64_S16x2048x2048_2_2_1_1_0_0.rhsIdx (ix3 c n m) ((contrEquiv1 dot_S16x2048x64_S16x2048x64_S16x2048x2048_2_2_1_1_0_0 64 rfl rfl).symm k) = ix3 c m k := funext fun a => Fin.ext (by
    match a with
    | ⟨0, _⟩ => exact rhs0 _ _
    | ⟨1, _⟩ => exact rhs1 _ _
    | ⟨2, _⟩ => exact (rhs2 _ _).trans hk)
  rw [el, er]

/-! ## The identity matrix and the layout operations -/

/-- The identity matrix (two iotas compared for equality, the bit converted to f32) at (n, m): one on the diagonal,
    zero off it. -/
theorem eye_apply (n m : Fin 2048) :
    uitofp (F := Ideal) .f32 (cmpi .eq (addi (iotaInDim S2048x2048 32 0) (broadcastInDim S2048x2048 ![] bcast_S_S2048x2048 (constantI S_ 32 0#32)))
      (iotaInDim S2048x2048 32 1)) (ix2 n m) = if n = m then (1 : EReal) else 0 := by
  show (((IntOp.cmpi .eq (IntOp.addi (BitVec.ofNat 32 n.val) (broadcastInDim S2048x2048 ![] bcast_S_S2048x2048 (constantI S_ 32 0#32) (ix2 n m)))
      (BitVec.ofNat 32 m.val)).toNat : ℝ) : EReal) = _
  rw [broadcastInDim_scalar_apply]
  have hz : IntOp.addi (BitVec.ofNat 32 n.val) (constantI S_ 32 0#32 ix0) = BitVec.ofNat 32 n.val := BitVec.add_zero _
  rw [hz]
  by_cases hnm : n = m
  · subst hnm
    rw [if_pos rfl, IntOp.cmpi_eq.2 rfl]
    simp
  · rw [if_neg hnm]
    have hne : ¬ IntOp.cmpi .eq (BitVec.ofNat 32 n.val) (BitVec.ofNat 32 m.val) = 1#1 := fun h => by
      have h2 := congrArg BitVec.toNat (IntOp.cmpi_eq.1 h)
      rw [toNat_ofNat_fin, toNat_ofNat_fin] at h2
      exact hnm (Fin.ext h2)
    rw [eq_zero_of_ne_one hne]
    simp

/-- A matrix carried to every cloud ([2048,2048] to [1,2048,2048] to [16,2048,2048]) read at (c, n, m): the matrix at (n, m). -/
theorem bcastAll_apply {α : Type} (E : S2048x2048.Idx → α) (c : Fin 16) (n m : Fin 2048) :
    broadcastInDim S16x2048x2048 ![0, 1, 2] bcast_S1x2048x2048_S16x2048x2048_0_1_2
      (broadcastInDim S1x2048x2048 ![1, 2] bcast_S2048x2048_S1x2048x2048_1_2 E) (ix3 c n m) = E (ix2 n m) := by
  rw [broadcastInDim_apply _ bcast_S1x2048x2048_S16x2048x2048_0_1_2 _ (ix3 c n m) (ix3 (0 : Fin 1) n m) (fun a => match a with
    | ⟨0, _⟩ => by show 0 = if (1 : Nat) = 1 then 0 else c.val; rw [if_pos rfl]
    | ⟨1, _⟩ => by show n.val = if (2048 : Nat) = 1 then 0 else n.val; rw [if_neg (by decide)]
    | ⟨2, _⟩ => by show m.val = if (2048 : Nat) = 1 then 0 else m.val; rw [if_neg (by decide)])]
  exact broadcastInDim_apply _ bcast_S2048x2048_S1x2048x2048_1_2 E (ix3 (0 : Fin 1) n m) (ix2 n m) (fun a => match a with
    | ⟨0, _⟩ => by show n.val = if (2048 : Nat) = 1 then 0 else n.val; rw [if_neg (by decide)]
    | ⟨1, _⟩ => by show m.val = if (2048 : Nat) = 1 then 0 else m.val; rw [if_neg (by decide)])

/-- A per-point value spread along rows ([16,2048] to [16,2048,1] to [16,2048,2048]) read at (c, n, m): the value at (c, n). -/
theorem bcastRow_apply {α : Type} (E : S16x2048.Idx → α) (c : Fin 16) (n m : Fin 2048) :
    broadcastInDim S16x2048x2048 ![0, 1, 2] bcast_S16x2048x1_S16x2048x2048_0_1_2
      (broadcastInDim S16x2048x1 ![0, 1] bcast_S16x2048_S16x2048x1_0_1 E) (ix3 c n m) = E (ix2 c n) := by
  rw [broadcastInDim_apply _ bcast_S16x2048x1_S16x2048x2048_0_1_2 _ (ix3 c n m) (ix3 c n (0 : Fin 1)) (fun a => match a with
    | ⟨0, _⟩ => by show c.val = if (16 : Nat) = 1 then 0 else c.val; rw [if_neg (by decide)]
    | ⟨1, _⟩ => by show n.val = if (2048 : Nat) = 1 then 0 else n.val; rw [if_neg (by decide)]
    | ⟨2, _⟩ => by show 0 = if (1 : Nat) = 1 then 0 else m.val; rw [if_pos rfl])]
  exact broadcastInDim_apply _ bcast_S16x2048_S16x2048x1_0_1 E (ix3 c n (0 : Fin 1)) (ix2 c n) (fun a => match a with
    | ⟨0, _⟩ => by show c.val = if (16 : Nat) = 1 then 0 else c.val; rw [if_neg (by decide)]
    | ⟨1, _⟩ => by show n.val = if (2048 : Nat) = 1 then 0 else n.val; rw [if_neg (by decide)])

/-- A per-point value spread along columns ([16,2048] to [16,1,2048] to [16,2048,2048]) read at (c, n, m): the value at (c, m). -/
theorem bcastCol_apply {α : Type} (E : S16x2048.Idx → α) (c : Fin 16) (n m : Fin 2048) :
    broadcastInDim S16x2048x2048 ![0, 1, 2] bcast_S16x1x2048_S16x2048x2048_0_1_2
      (broadcastInDim S16x1x2048 ![0, 2] bcast_S16x2048_S16x1x2048_0_2 E) (ix3 c n m) = E (ix2 c m) := by
  rw [broadcastInDim_apply _ bcast_S16x1x2048_S16x2048x2048_0_1_2 _ (ix3 c n m) (ix3 c (0 : Fin 1) m) (fun a => match a with
    | ⟨0, _⟩ => by show c.val = if (16 : Nat) = 1 then 0 else c.val; rw [if_neg (by decide)]
    | ⟨1, _⟩ => by show 0 = if (1 : Nat) = 1 then 0 else n.val; rw [if_pos rfl]
    | ⟨2, _⟩ => by show m.val = if (2048 : Nat) = 1 then 0 else m.val; rw [if_neg (by decide)])]
  exact broadcastInDim_apply _ bcast_S16x2048_S16x1x2048_0_2 E (ix3 c (0 : Fin 1) m) (ix2 c m) (fun a => match a with
    | ⟨0, _⟩ => by show c.val = if (16 : Nat) = 1 then 0 else c.val; rw [if_neg (by decide)]
    | ⟨1, _⟩ => by show m.val = if (2048 : Nat) = 1 then 0 else m.val; rw [if_neg (by decide)])

/-- The host's sum over the last axis from the zero word, read at (c, n): the sum over m of the entries (c, n, m). -/
theorem rowsum_apply (v : FVec Ideal S16x2048x2048 .f32) (c : Fin 16) (n : Fin 2048) :
    Host.reduceAdd (F := Ideal) v (constant (F := Ideal) S_ .f32 0x00000000#32) reducesTo_S16x2048x2048_S16x2048_d2 h_S_ (ix2 c n)
      = ∑ m : Fin 2048, v (ix3 c n m) := by
  rw [hostReduceAdd_apply, Ideal.hostReduceAdd_single reducesTo_S16x2048x2048_S16x2048_d2 (by decide), constant_apply,
    Ideal.ofBits_zero_f32, zero_add]
  refine Finset.sum_congr rfl fun k _ => ?_
  exact congrArg v (funext fun a => Fin.ext (by match a with | ⟨0, _⟩ => rfl | ⟨1, _⟩ => rfl | ⟨2, _⟩ => rfl))

/-! ## The layer's pieces read at an entry -/

private theorem hostPowf_apply {s : Shape} (a b : FVec Ideal s .f32) (i : s.Idx) : Host.powf a b i = Ideal.pow (a i) (b i) := rfl

/-- The guard as the program spells it: where the degree compares equal to zero take one, else the degree. -/
private theorem guard_select (d : EReal) : Scalar.select (Ideal.cmp .oeq d 0) (1 : EReal) d = Cert.GraphConv.guard d := by
  unfold Cert.GraphConv.guard
  by_cases h : d = 0
  · have e : Ideal.cmp .oeq d 0 = 1#1 := by unfold Ideal.cmp; rw [ofBool_eq_one]; exact decide_eq_true h
    rw [e, select_one, if_pos h]
  · have e : Ideal.cmp .oeq d 0 = 0#1 := eq_zero_of_ne_one fun e => h (by
      unfold Ideal.cmp at e; rw [ofBool_eq_one] at e; exact of_decide_eq_true e)
    rw [e, select_zero, if_neg h]

/-- The edge weight between points n and m of cloud c. -/
theorem refWeight_apply (y : FVec Ideal S16x2048x64 .f32) (c : Fin 16) (n m : Fin 2048) :
    refWeight y (ix3 c n m) = Cert.GraphConv.weight (fun (p : Fin 2048) (k : Fin 64) => y (ix3 c p k)) n m := by
  unfold refWeight Cert.GraphConv.weight
  dsimp only
  rw [addf_apply, gram_apply, bcastAll_apply, eye_apply]

/-- The degree of point n of cloud c: the row sum of the weights. -/
theorem refDeg_apply (y : FVec Ideal S16x2048x64 .f32) (c : Fin 16) (n : Fin 2048) :
    Host.reduceAdd (F := Ideal) (refWeight y) (constant (F := Ideal) S_ .f32 0x00000000#32) reducesTo_S16x2048x2048_S16x2048_d2 h_S_ (ix2 c n)
      = Cert.GraphConv.degDense (fun (p : Fin 2048) (k : Fin 64) => y (ix3 c p k)) n := by
  rw [rowsum_apply]
  unfold Cert.GraphConv.degDense
  exact Finset.sum_congr rfl fun m _ => refWeight_apply y c n m

/-- The scale of point n of cloud c: its guarded degree to the power minus one half. -/
theorem refScale_apply (y : FVec Ideal S16x2048x64 .f32) (c : Fin 16) (n : Fin 2048) :
    refScale y (ix2 c n) = Cert.GraphConv.scaleDense (fun (p : Fin 2048) (k : Fin 64) => y (ix3 c p k)) n := by
  unfold refScale Cert.GraphConv.scaleDense
  dsimp only
  rw [hostPowf_apply, select_apply, cmpf_apply, Ideal.cmpf_def, refDeg_apply]
  rw [broadcastInDim_scalar_apply, broadcastInDim_scalar_apply, broadcastInDim_scalar_apply, constant_apply, constant_apply,
    constant_apply, Ideal.ofBits_zero_f32, Ideal.ofBits_one_f32, ofBits_neg_half_f32, guard_select]

/-- The normalised weight between points n and m of cloud c. -/
theorem refAdj_apply (y : FVec Ideal S16x2048x64 .f32) (c : Fin 16) (n m : Fin 2048) :
    refAdj y (ix3 c n m)
      = (Cert.GraphConv.weight (fun (p : Fin 2048) (k : Fin 64) => y (ix3 c p k)) n m
          * Cert.GraphConv.scaleDense (fun (p : Fin 2048) (k : Fin 64) => y (ix3 c p k)) n)
        * Cert.GraphConv.scaleDense (fun (p : Fin 2048) (k : Fin 64) => y (ix3 c p k)) m := by
  unfold refAdj
  dsimp only
  rw [mulf_apply, mulf_apply, bcastRow_apply, bcastCol_apply, refWeight_apply, refScale_apply, refScale_apply]

end Cert.RefLayer

end
-- ==== Proof.RefLayerRead.lean ====
/-
  One layer of the reference, read at an index.

  The layer's last steps are: the linear map `H = y W + b` (a product contracting the feature axis of `y` with the first
  axis of `W`, no batch axis; the bias repeated over the clouds and the points), the product of the normalised
  similarity matrix with `H` (batched over the clouds, contracting the matrix's last axis with the points of `H`),
  and the maximum with a zero splat. Read at the cloud `c`, the point `n` and the feature `f`, with the cloud's
  points `Y = y (c, ·, ·)`:

  * `H (c, m, f) = Σ_k Y m k · W k f + b f`;
  * the product at `(c, n, f)` is `Σ_m Â (c, n, m) · H (c, m, f)`;
  * the layer is the maximum of that with zero: the dense arrangement of the graph-convolution layer of the cloud `c`.
-/
import proofs.«151379_j33741263077528_1_alg».proof.Proof.RefLayer
import proofs.«151379_j33741263077528_1_alg».proof.Proof.RefAdjRead
import proofs.«151379_j33741263077528_1_alg».proof.Proof.GraphConv
import Idealize.ShloMosaic.Lib.Pipeline.Value
import Idealize.ShloMosaic.Lib.ValueIdx
import Idealize.ShloMosaic.PureOps.Ideal.Laws

noncomputable section

namespace Cert.RefLayer

open Idealize.ShloMosaic Idealize.ShloMosaic.ValueIdx Cert.ReferenceIdeal Cert.ReferenceIdeal.Gen

/-! ## The two products read at an index -/

/-! The operand indices of the two products, coordinate by coordinate: an output index's batch and free coordinates go
    to the operands' batch and free axes, the contraction index to the contracted axes. -/

theorem linear_lhs_0 (i : S16x2048x64.Idx) (q : dot_S16x2048x64_S64x64_S16x2048x64_2_0_01_1_n_n.contr.Idx) :
    (dot_S16x2048x64_S64x64_S16x2048x64_2_0_01_1_n_n.lhsIdx i q 0).val = (i 0).val := by
  unfold DotDims.lhsIdx
  rw [dif_neg (show ¬(0 : Fin S16x2048x64.rank) ∈ dot_S16x2048x64_S64x64_S16x2048x64_2_0_01_1_n_n.lhsBatch by decide),
    dif_pos (show (0 : Fin S16x2048x64.rank) ∈ dot_S16x2048x64_S64x64_S16x2048x64_2_0_01_1_n_n.lhsNonContracting by decide)]
  rfl
theorem linear_lhs_1 (i : S16x2048x64.Idx) (q : dot_S16x2048x64_S64x64_S16x2048x64_2_0_01_1_n_n.contr.Idx) :
    (dot_S16x2048x64_S64x64_S16x2048x64_2_0_01_1_n_n.lhsIdx i q 1).val = (i 1).val := by
  unfold DotDims.lhsIdx
  rw [dif_neg (show ¬(1 : Fin S16x2048x64.rank) ∈ dot_S16x2048x64_S64x64_S16x2048x64_2_0_01_1_n_n.lhsBatch by decide),
    dif_pos (show (1 : Fin S16x2048x64.rank) ∈ dot_S16x2048x64_S64x64_S16x2048x64_2_0_01_1_n_n.lhsNonContracting by decide)]
  rfl
theorem linear_lhs_2 (i : S16x2048x64.Idx) (q : dot_S16x2048x64_S64x64_S16x2048x64_2_0_01_1_n_n.contr.Idx) :
    (dot_S16x2048x64_S64x64_S16x2048x64_2_0_01_1_n_n.lhsIdx i q 2).val = (q ⟨0, by decide⟩).val :=
  dot_S16x2048x64_S64x64_S16x2048x64_2_0_01_1_n_n.lhsIdx_val_of_single rfl i q
theorem linear_rhs_0 (i : S16x2048x64.Idx) (q : dot_S16x2048x64_S64x64_S16x2048x64_2_0_01_1_n_n.contr.Idx) :
    (dot_S16x2048x64_S64x64_S16x2048x64_2_0_01_1_n_n.rhsIdx i q 0).val = (q ⟨0, by decide⟩).val :=
  dot_S16x2048x64_S64x64_S16x2048x64_2_0_01_1_n_n.rhsIdx_val_of_single rfl i q
theorem linear_rhs_1 (i : S16x2048x64.Idx) (q : dot_S16x2048x64_S64x64_S16x2048x64_2_0_01_1_n_n.contr.Idx) :
    (dot_S16x2048x64_S64x64_S16x2048x64_2_0_01_1_n_n.rhsIdx i q 1).val = (i 2).val := by
  unfold DotDims.rhsIdx
  rw [dif_neg (show ¬(1 : Fin S64x64.rank) ∈ dot_S16x2048x64_S64x64_S16x2048x64_2_0_01_1_n_n.rhsBatch by decide),
    dif_pos (show (1 : Fin S64x64.rank) ∈ dot_S16x2048x64_S64x64_S16x2048x64_2_0_01_1_n_n.rhsNonContracting by decide)]
  rfl

theorem adj_lhs_0 (i : S16x2048x64.Idx) (q : dot_S16x2048x2048_S16x2048x64_S16x2048x64_2_1_1_2_0_0.contr.Idx) :
    (dot_S16x2048x2048_S16x2048x64_S16x2048x64_2_1_1_2_0_0.lhsIdx i q 0).val = (i 0).val := by
  unfold DotDims.lhsIdx
  rw [dif_pos (show (0 : Fin S16x2048x2048.rank) ∈ dot_S16x2048x2048_S16x2048x64_S16x2048x64_2_1_1_2_0_0.lhsBatch by decide)]
  rfl
theorem adj_lhs_1 (i : S16x2048x64.Idx) (q : dot_S16x2048x2048_S16x2048x64_S16x2048x64_2_1_1_2_0_0.contr.Idx) :
    (dot_S16x2048x2048_S16x2048x64_S16x2048x64_2_1_1_2_0_0.lhsIdx i q 1).val = (i 1).val := by
  unfold DotDims.lhsIdx
  rw [dif_neg (show ¬(1 : Fin S16x2048x2048.rank) ∈ dot_S16x2048x2048_S16x2048x64_S16x2048x64_2_1_1_2_0_0.lhsBatch by decide),
    dif_pos (show (1 : Fin S16x2048x2048.rank) ∈ dot_S16x2048x2048_S16x2048x64_S16x2048x64_2_1_1_2_0_0.lhsNonContracting by decide)]
  rfl
theorem adj_lhs_2 (i : S16x2048x64.Idx) (q : dot_S16x2048x2048_S16x2048x64_S16x2048x64_2_1_1_2_0_0.contr.Idx) :
    (dot_S16x2048x2048_S16x2048x64_S16x2048x64_2_1_1_2_0_0.lhsIdx i q 2).val = (q ⟨0, by decide⟩).val :=
  dot_S16x2048x2048_S16x2048x64_S16x2048x64_2_1_1_2_0_0.lhsIdx_val_of_single rfl i q
theorem adj_rhs_0 (i : S16x2048x64.Idx) (q : dot_S16x2048x2048_S16x2048x64_S16x2048x64_2_1_1_2_0_0.contr.Idx) :
    (dot_S16x2048x2048_S16x2048x64_S16x2048x64_2_1_1_2_0_0.rhsIdx i q 0).val = (i 0).val := by
  unfold DotDims.rhsIdx
  rw [dif_pos (show (0 : Fin S16x2048x64.rank) ∈ dot_S16x2048x2048_S16x2048x64_S16x2048x64_2_1_1_2_0_0.rhsBatch by decide)]
  rfl
theorem adj_rhs_1 (i : S16x2048x64.Idx) (q : dot_S16x2048x2048_S16x2048x64_S16x2048x64_2_1_1_2_0_0.contr.Idx) :
    (dot_S16x2048x2048_S16x2048x64_S16x2048x64_2_1_1_2_0_0.rhsIdx i q 1).val = (q ⟨0, by decide⟩).val :=
  dot_S16x2048x2048_S16x2048x64_S16x2048x64_2_1_1_2_0_0.rhsIdx_val_of_single rfl i q
theorem adj_rhs_2 (i : S16x2048x64.Idx) (q : dot_S16x2048x2048_S16x2048x64_S16x2048x64_2_1_1_2_0_0.contr.Idx) :
    (dot_S16x2048x2048_S16x2048x64_S16x2048x64_2_1_1_2_0_0.rhsIdx i q 2).val = (i 2).val := by
  unfold DotDims.rhsIdx
  rw [dif_neg (show ¬(2 : Fin S16x2048x64.rank) ∈ dot_S16x2048x2048_S16x2048x64_S16x2048x64_2_1_1_2_0_0.rhsBatch by decide),
    dif_pos (show (2 : Fin S16x2048x64.rank) ∈ dot_S16x2048x2048_S16x2048x64_S16x2048x64_2_1_1_2_0_0.rhsNonContracting by decide)]
  rfl

/-- The linear map's product, `[16, 2048, 64] × [64, 64]` contracting the left's last axis with the right's first, at
    `(c, m, f)`: the sum over the feature `k` of the left at `(c, m, k)` times the right at `(k, f)`. -/
theorem dotLinear_apply (y : FVec Ideal S16x2048x64 .f32) (W : FVec Ideal S64x64 .f32) (c : Fin 16) (m : Fin 2048)
    (f : Fin 64) :
    Host.dotGeneral dot_S16x2048x64_S64x64_S16x2048x64_2_0_01_1_n_n none y W (ix3 c m f) = ∑ k : Fin 64, y (ix3 c m k) * W (ix2 k f) := by
  simp only [Host.dotGeneral]
  rw [Ideal.dotGeneral_apply, ← Equiv.sum_comp (contrEquiv1 dot_S16x2048x64_S64x64_S16x2048x64_2_0_01_1_n_n 64 rfl rfl).symm]
  refine Finset.sum_congr rfl fun k _ => ?_
  have hk := contrEquiv1_symm_val dot_S16x2048x64_S64x64_S16x2048x64_2_0_01_1_n_n 64 rfl rfl k
  have el : dot_S16x2048x64_S64x64_S16x2048x64_2_0_01_1_n_n.lhsIdx (ix3 c m f) ((contrEquiv1 dot_S16x2048x64_S64x64_S16x2048x64_2_0_01_1_n_n 64 rfl rfl).symm k) = ix3 c m k :=
    funext fun a => Fin.ext (by
      match a with
      | ⟨0, _⟩ => exact linear_lhs_0 _ _
      | ⟨1, _⟩ => exact linear_lhs_1 _ _
      | ⟨2, _⟩ => exact (linear_lhs_2 _ _).trans hk)
  have er : dot_S16x2048x64_S64x64_S16x2048x64_2_0_01_1_n_n.rhsIdx (ix3 c m f) ((contrEquiv1 dot_S16x2048x64_S64x64_S16x2048x64_2_0_01_1_n_n 64 rfl rfl).symm k) = ix2 k f :=
    funext fun a => Fin.ext (by
      match a with
      | ⟨0, _⟩ => exact (linear_rhs_0 _ _).trans hk
      | ⟨1, _⟩ => exact linear_rhs_1 _ _)
  rw [el, er]

/-- The product with the normalised matrix, `[16, 2048, 2048] × [16, 2048, 64]` batched over the first axis and
    contracting the left's last axis with the right's middle one, at `(c, n, f)`: the sum over the point `m` of the
    left at `(c, n, m)` times the right at `(c, m, f)`. -/
theorem dotAdj_apply (A : FVec Ideal S16x2048x2048 .f32) (H : FVec Ideal S16x2048x64 .f32) (c : Fin 16)
    (n : Fin 2048) (f : Fin 64) :
    Host.dotGeneral dot_S16x2048x2048_S16x2048x64_S16x2048x64_2_1_1_2_0_0 none A H (ix3 c n f) = ∑ m : Fin 2048, A (ix3 c n m) * H (ix3 c m f) := by
  simp only [Host.dotGeneral]
  rw [Ideal.dotGeneral_apply, ← Equiv.sum_comp (contrEquiv1 dot_S16x2048x2048_S16x2048x64_S16x2048x64_2_1_1_2_0_0 2048 rfl rfl).symm]
  refine Finset.sum_congr rfl fun m _ => ?_
  have hk := contrEquiv1_symm_val dot_S16x2048x2048_S16x2048x64_S16x2048x64_2_1_1_2_0_0 2048 rfl rfl m
  have el : dot_S16x2048x2048_S16x2048x64_S16x2048x64_2_1_1_2_0_0.lhsIdx (ix3 c n f) ((contrEquiv1 dot_S16x2048x2048_S16x2048x64_S16x2048x64_2_1_1_2_0_0 2048 rfl rfl).symm m) = ix3 c n m :=
    funext fun a => Fin.ext (by
      match a with
      | ⟨0, _⟩ => exact adj_lhs_0 _ _
      | ⟨1, _⟩ => exact adj_lhs_1 _ _
      | ⟨2, _⟩ => exact (adj_lhs_2 _ _).trans hk)
  have er : dot_S16x2048x2048_S16x2048x64_S16x2048x64_2_1_1_2_0_0.rhsIdx (ix3 c n f) ((contrEquiv1 dot_S16x2048x2048_S16x2048x64_S16x2048x64_2_1_1_2_0_0 2048 rfl rfl).symm m) = ix3 c m f :=
    funext fun a => Fin.ext (by
      match a with
      | ⟨0, _⟩ => exact adj_rhs_0 _ _
      | ⟨1, _⟩ => exact (adj_rhs_1 _ _).trans hk
      | ⟨2, _⟩ => exact adj_rhs_2 _ _)
  rw [el, er]

/-! ## The bias and the zero splat read at an index -/

/-- The bias, given two leading unit axes and then repeated over the clouds and the points, reads at `(c, m, f)` its
    entry `f`. -/
theorem biasRows_apply {α : Type} (b : S64.Idx → α) (c : Fin 16) (m : Fin 2048) (f : Fin 64) :
    broadcastInDim S16x2048x64 ![0, 1, 2] bcast_S1x1x64_S16x2048x64_0_1_2
        (broadcastInDim S1x1x64 ![2] bcast_S64_S1x1x64_2 b) (ix3 c m f) = b (ix1 f) := by
  refine (broadcastInDim_apply _ bcast_S1x1x64_S16x2048x64_0_1_2 _ (ix3 c m f)
    (ix3 (0 : Fin 1) (0 : Fin 1) f) fun a => ?_).trans
    (broadcastInDim_apply _ bcast_S64_S1x1x64_2 b (ix3 (0 : Fin 1) (0 : Fin 1) f) (ix1 f) fun a => ?_)
  · match a with
    | ⟨0, _⟩ => show 0 = if (1 : Nat) = 1 then 0 else c.val; rw [if_pos rfl]
    | ⟨1, _⟩ => show 0 = if (1 : Nat) = 1 then 0 else m.val; rw [if_pos rfl]
    | ⟨2, _⟩ => show f.val = if (64 : Nat) = 1 then 0 else f.val; rw [if_neg (by decide)]
  · match a with
    | ⟨0, _⟩ => show f.val = if (64 : Nat) = 1 then 0 else f.val; rw [if_neg (by decide)]

/-- The maximum with the zero splat, at an index: the maximum of the element with zero. -/
theorem reluZero_apply (v : FVec Ideal S16x2048x64 .f32) (j : S16x2048x64.Idx) :
    maximumf v (broadcastInDim S16x2048x64 ![] bcast_S_S16x2048x64 (constant S_ .f32 0x00000000#32)) j
      = max (v j) 0 := by
  rw [maximumf_apply, broadcastInDim_apply _ bcast_S_S16x2048x64 _ j ix0 fun a => a.elim0, constant_apply,
    Ideal.ofBits_zero_f32]

/-! ## The layer read at an index -/

/-- The linear map at `(c, m, f)`: `Σ_k Y m k · W k f + b f`, the linear map of the cloud `c`'s points. -/
theorem refHidden_apply (y : FVec Ideal S16x2048x64 .f32) (W : FVec Ideal S64x64 .f32) (b : FVec Ideal S64 .f32)
    (c : Fin 16) (m : Fin 2048) (f : Fin 64) :
    refHidden y W b (ix3 c m f)
      = Cert.GraphConv.hidden (fun (p : Fin 2048) (k : Fin 64) => y (ix3 c p k)) (fun (k g : Fin 64) => W (ix2 k g))
          (fun (g : Fin 64) => b (ix1 g)) m f := by
  refine (addf_apply (Host.dotGeneral dot_S16x2048x64_S64x64_S16x2048x64_2_0_01_1_n_n none y W)
    (broadcastInDim S16x2048x64 ![0, 1, 2] bcast_S1x1x64_S16x2048x64_0_1_2
      (broadcastInDim S1x1x64 ![2] bcast_S64_S1x1x64_2 b)) (ix3 c m f)).trans ?_
  rw [dotLinear_apply, biasRows_apply]
  rfl

/-- The product of the normalised weights with the linear map at `(c, n, f)`: the sum over the points `m` of the cloud. -/
theorem refProduct_apply (y : FVec Ideal S16x2048x64 .f32) (W : FVec Ideal S64x64 .f32) (b : FVec Ideal S64 .f32)
    (c : Fin 16) (n : Fin 2048) (f : Fin 64) :
    Host.dotGeneral dot_S16x2048x2048_S16x2048x64_S16x2048x64_2_1_1_2_0_0 none (refAdj y) (refHidden y W b) (ix3 c n f)
      = ∑ m : Fin 2048, refAdj y (ix3 c n m) * refHidden y W b (ix3 c m f) :=
  dotAdj_apply _ _ c n f

/-- One layer of the reference at `(c, n, f)` is the maximum with zero of that sum. -/
theorem refLayer_relu_apply (y : FVec Ideal S16x2048x64 .f32) (W : FVec Ideal S64x64 .f32) (b : FVec Ideal S64 .f32)
    (c : Fin 16) (n : Fin 2048) (f : Fin 64) :
    refLayer y W b (ix3 c n f) = max (∑ m : Fin 2048, refAdj y (ix3 c n m) * refHidden y W b (ix3 c m f)) 0 :=
  (reluZero_apply _ (ix3 c n f)).trans (congrArg (max · 0) (refProduct_apply y W b c n f))

/-- One layer of the reference at the cloud `c`, the point `n` and the feature `f` is the dense arrangement of the
    graph-convolution layer of the cloud's points, at `(n, f)`, GIVEN that the normalised weights read as the dense
    arrangement's `(w_nm · d_n) · d_m`: the two sums over the points then agree term by term. -/
theorem refLayer_apply_of_adj
    (hAdj : ∀ (y : FVec Ideal S16x2048x64 .f32) (c : Fin 16) (n m : Fin 2048),
      refAdj y (ix3 c n m)
        = (Cert.GraphConv.weight (fun (p : Fin 2048) (k : Fin 64) => y (ix3 c p k)) n m
            * Cert.GraphConv.scaleDense (fun (p : Fin 2048) (k : Fin 64) => y (ix3 c p k)) n)
          * Cert.GraphConv.scaleDense (fun (p : Fin 2048) (k : Fin 64) => y (ix3 c p k)) m)
    (y : FVec Ideal S16x2048x64 .f32) (W : FVec Ideal S64x64 .f32) (b : FVec Ideal S64 .f32)
    (c : Fin 16) (n : Fin 2048) (f : Fin 64) :
    refLayer y W b (ix3 c n f)
      = Cert.GraphConv.layerDense (fun (p : Fin 2048) (k : Fin 64) => y (ix3 c p k))
          (fun (k g : Fin 64) => W (ix2 k g)) (fun (g : Fin 64) => b (ix1 g)) n f := by
  rw [refLayer_relu_apply]
  unfold Cert.GraphConv.layerDense
  refine congrArg (max · 0) (Finset.sum_congr rfl fun m _ => ?_)
  rw [hAdj, refHidden_apply]

/-- One layer of the reference at the cloud `c`, the point `n` and the feature `f` is the dense arrangement of the
    graph-convolution layer of the cloud's points, at `(n, f)`: the normalised weights read as the dense arrangement's
    `(w_nm · d_n) · d_m`. -/
theorem refLayer_apply (y : FVec Ideal S16x2048x64 .f32) (W : FVec Ideal S64x64 .f32) (b : FVec Ideal S64 .f32)
    (c : Fin 16) (n : Fin 2048) (f : Fin 64) :
    refLayer y W b (ix3 c n f)
      = Cert.GraphConv.layerDense (fun (p : Fin 2048) (k : Fin 64) => y (ix3 c p k))
          (fun (k g : Fin 64) => W (ix2 k g)) (fun (g : Fin 64) => b (ix1 g)) n f :=
  refLayer_apply_of_adj refAdj_apply y W b c n f

end Cert.RefLayer

end
-- ==== Proof.ReferenceValue.lean ====
/-
  The idealized reference's result array, whole: at every index (c, n, f) it is three graph-convolution layers, in the
  dense arrangement, of the `c`-th cloud of points (Net.net GraphConv.layerDense of the seven arguments).

  The program is three identical stretches of host operations, each one layer (RefLayer.refLayer) of the stretch before;
  its run ends with the result at the operations' composed term, which is `refLayer` applied three times, and each
  `refLayer` at an index is the dense arrangement of its operand's `c`-th slab (RefLayerRead).
-/
import proofs.«151379_j33741263077528_1_alg».proof.Proof.ReferenceRun
import proofs.«151379_j33741263077528_1_alg».proof.Proof.RefLayerRead
import proofs.«151379_j33741263077528_1_alg».proof.Proof.Net

noncomputable section

namespace Cert.ReferenceValue

open Cert.ReferenceIdeal Cert.ReferenceIdeal.Gen Idealize.ShloMosaic Idealize.ShloMosaic.ValueIdx Idealize.ShloMosaic.TcCoe Idealize.SL.Sem
open Cert.RefLayer

set_option maxRecDepth 16384 in
set_option maxHeartbeats 40000000 in
/-- The run's composed term of the arguments is one layer applied three times (the term written out is the three layers
    with every shared operand repeated; unfolding the layer's definition gives it back). -/
theorem res_eq {F : FTy → Type} [FloatOps F] (m : (ℓ : Loc nD τ sig) → Buf (Elt F) ℓ) (c : Dev nD) :
    Cert.ReferenceIdeal.ValueP.res_main_v86 m c
      = refLayer (refLayer (refLayer
          (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)))
          (m ((c.tc : Thread nD τ).loc main_arg5)) (m ((c.tc : Thread nD τ).loc main_arg6)) := by
  unfold Cert.ReferenceIdeal.ValueP.res_main_v86
  rfl

/-- One layer as a function of the point and the feature, cloud by cloud. -/
theorem refLayer_slab (y : FVec Ideal S16x2048x64 .f32) (W : FVec Ideal S64x64 .f32) (b : FVec Ideal S64 .f32) (c : Fin 16) :
    (fun (p : Fin 2048) (k : Fin 64) => refLayer y W b (ix3 c p k))
      = Cert.GraphConv.layerDense (fun (p : Fin 2048) (k : Fin 64) => y (ix3 c p k)) (fun (k g : Fin 64) => W (ix2 k g))
          (fun (g : Fin 64) => b (ix1 g)) :=
  funext fun p => funext fun k => refLayer_apply y W b c p k

/-- Three layers are the network in the dense arrangement. -/
theorem refNet_eq (x : FVec Ideal S16x2048x64 .f32) (W0 : FVec Ideal S64x64 .f32) (b0 : FVec Ideal S64 .f32)
    (W1 : FVec Ideal S64x64 .f32) (b1 : FVec Ideal S64 .f32) (W2 : FVec Ideal S64x64 .f32) (b2 : FVec Ideal S64 .f32) :
    refLayer (refLayer (refLayer x W0 b0) W1 b1) W2 b2 = Cert.Net.net Cert.GraphConv.layerDense x W0 b0 W1 b1 W2 b2 := by
  funext i
  obtain ⟨c, n, f, rfl⟩ : ∃ (c : Fin 16) (n : Fin 2048) (f : Fin 64), i = ix3 c n f := ⟨i 0, i 1, i 2, eq_ix3 i⟩
  rw [refLayer_apply, refLayer_slab, refLayer_slab, Cert.Net.net_ix3]
  rfl

variable (m : (ℓ : Loc nD τ sig) → Buf (Elt Ideal) ℓ) (ρ : Dev nD → PrngReg)

/-- The run re-posted: the result array at the network of the arguments, the arguments unchanged. -/
theorem run : θ_run defs (onTc (τ := τ) (main (F := Ideal))) ⟨m, fun _ => 0, ρ⟩ fun r => ∀ c : Dev nD,
      r.2.mem ((c.tc : Thread nD τ).loc main_v86)
        = Cert.Net.net Cert.GraphConv.layerDense (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans ((res_eq m c).trans (refNet_eq _ _ _ _ _ _ _)), (h c).2⟩)
    (Cert.ReferenceIdeal.ValueP.run (F := Ideal) m ρ)

end Cert.ReferenceValue

end
-- ==== Proof.GraphConvLaw.lean ====
/-
  The two arrangements of the graph-convolution layer are the same function of real inputs whose degrees are not
  negative.

  Every piece of the layer (the linear map, the edge weights, the degrees, the inverse square roots, the two sums) is
  written a second time over the real numbers, and each extended-real piece at real arguments is shown to be the real
  piece, seen in the extended reals: sums and products of reals stay real, a guarded degree that is not negative is
  positive, and on a positive real both inverse square roots are `(√g)⁻¹`. What is left is an identity of finite real
  sums: with `s_n = (√(guarded degree of n))⁻¹` and `h = x w + b`,

    `Σ_m ((Σ_k x_nk x_mk + δ_nm) s_n s_m) h_mf = s_n (Σ_k x_nk (Σ_m x_mk (h_mf s_m)) + h_nf s_n)`,

  by distributing, exchanging the two sums, and collapsing the diagonal term. The output of a layer is a maximum with
  zero, so it is not negative, so its degrees are positive, and the next layer's hypothesis holds: three layers agree.
-/
import proofs.«151379_j33741263077528_1_alg».proof.Proof.GraphConv

noncomputable section

namespace Cert.GraphConv

open Idealize.ShloMosaic

variable {ι κ : Type} [Fintype ι] [Fintype κ] [DecidableEq ι]

/-! ## The pieces of the layer over the real numbers -/

/-- Over the reals: a zero degree is replaced by one. -/
def guardR (d : ℝ) : ℝ := if d = 0 then 1 else d

/-- Over the reals: `h = x w + b`. -/
def hiddenR (x : ι → κ → ℝ) (w : κ → κ → ℝ) (b : κ → ℝ) (n : ι) (f : κ) : ℝ := (∑ k, x n k * w k f) + b f

/-- Over the reals: the edge weight `x_n · x_m`, plus one on the diagonal. -/
def weightR (x : ι → κ → ℝ) (n m : ι) : ℝ := (∑ k, x n k * x m k) + (if n = m then 1 else 0)

/-- The degree of the point `n` over the reals, as `x_n · (Σ_m x_m) + 1`. -/
def degReal (x : ι → κ → ℝ) (n : ι) : ℝ := (∑ k, x n k * ∑ m, x m k) + 1

/-- Over the reals: the inverse square root of the guarded degree. -/
def scaleR (x : ι → κ → ℝ) (n : ι) : ℝ := (Real.sqrt (guardR (degReal x n)))⁻¹

/-- Over the reals: the dense arrangement before the maximum with zero, `Σ_m ((w_nm s_n) s_m) h_mf`. -/
def preDenseR (x : ι → κ → ℝ) (w : κ → κ → ℝ) (b : κ → ℝ) (n : ι) (f : κ) : ℝ :=
  ∑ m, ((weightR x n m * scaleR x n) * scaleR x m) * hiddenR x w b m f

/-- Over the reals: the factored arrangement before the maximum with zero,
    `s_n (Σ_k x_nk (Σ_m x_mk (h_mf s_m)) + h_nf s_n)`. -/
def preFactoredR (x : ι → κ → ℝ) (w : κ → κ → ℝ) (b : κ → ℝ) (n : ι) (f : κ) : ℝ :=
  scaleR x n * ((∑ k, x n k * ∑ m, x m k * (hiddenR x w b m f * scaleR x m)) + hiddenR x w b n f * scaleR x n)

/-! ## The identities of real sums -/

/-- The row sum of the edge weights is `x_n · (Σ_m x_m) + 1`: exchange the two sums; the diagonal contributes one. -/
theorem sum_weightR (x : ι → κ → ℝ) (n : ι) : ∑ m, weightR x n m = degReal x n := by
  unfold weightR degReal
  rw [Finset.sum_add_distrib, Finset.sum_comm]
  congr 1
  · exact Finset.sum_congr rfl fun k _ => (Finset.mul_sum _ _ _).symm
  · simp

omit [DecidableEq ι] in
/-- The degree of a point cloud with no negative coordinate is positive (it is a sum of products of such, plus one). -/
theorem degReal_pos_of_nonneg (x : ι → κ → ℝ) (hx : ∀ n k, 0 ≤ x n k) (n : ι) : 0 < degReal x n := by
  unfold degReal
  have h : 0 ≤ ∑ k, x n k * ∑ m, x m k :=
    Finset.sum_nonneg fun k _ => mul_nonneg (hx n k) (Finset.sum_nonneg fun m _ => hx m k)
  linarith

/-- The two arrangements agree over the reals, whatever the scale `s` is: distribute the products over the edge
    weight's two terms; in the first exchange the sums over points and features, the second is the diagonal term. -/
theorem preDenseR_eq (x : ι → κ → ℝ) (w : κ → κ → ℝ) (b : κ → ℝ) (n : ι) (f : κ) :
    preDenseR x w b n f = preFactoredR x w b n f := by
  unfold preDenseR preFactoredR weightR
  have h1 : ∀ m, (((∑ k, x n k * x m k) + (if n = m then 1 else 0)) * scaleR x n) * scaleR x m * hiddenR x w b m f
      = (∑ k, scaleR x n * (x n k * (x m k * (hiddenR x w b m f * scaleR x m))))
        + (if n = m then scaleR x n * (hiddenR x w b m f * scaleR x m) else 0) := by
    intro m
    rw [add_mul, add_mul, add_mul, Finset.sum_mul, Finset.sum_mul, Finset.sum_mul]
    congr 1
    · exact Finset.sum_congr rfl fun k _ => by ring
    · split_ifs <;> ring
  rw [Finset.sum_congr rfl fun m _ => h1 m, Finset.sum_add_distrib, Finset.sum_ite_eq, if_pos (Finset.mem_univ n),
    Finset.sum_comm, mul_add, Finset.mul_sum]
  congr 1
  refine Finset.sum_congr rfl fun k _ => ?_
  rw [Finset.mul_sum, Finset.mul_sum]

/-! ## Real arguments give real values -/

/-- The sum in the extended reals of finitely many real numbers is their real sum. -/
theorem coe_sum {α : Type} (s : Finset α) (g : α → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The maximum in the extended reals of two real numbers is their real maximum (the inclusion is monotone). -/
theorem coe_max (p q : ℝ) : max (p : EReal) (q : EReal) = ((max p q : ℝ) : EReal) :=
  (EReal.coe_strictMono.monotone.map_max).symm

omit [DecidableEq ι] in
/-- The linear map of real arguments is real. -/
theorem hidden_coe (x : ι → κ → ℝ) (w : κ → κ → ℝ) (b : κ → ℝ) (n : ι) (f : κ) :
    hidden (fun n k => ((x n k : ℝ) : EReal)) (fun k f => ((w k f : ℝ) : EReal)) (fun f => ((b f : ℝ) : EReal)) n f
      = ((hiddenR x w b n f : ℝ) : EReal) := by
  simp only [hidden, hiddenR, ← EReal.coe_mul, coe_sum, ← EReal.coe_add]

/-- The edge weight of real points is real. -/
theorem weight_coe (x : ι → κ → ℝ) (n m : ι) :
    weight (fun n k => ((x n k : ℝ) : EReal)) n m = ((weightR x n m : ℝ) : EReal) := by
  have h : (if n = m then (1 : EReal) else 0) = (((if n = m then 1 else 0 : ℝ)) : EReal) := by
    split_ifs <;> simp
  simp only [weight, weightR, h, ← EReal.coe_mul, coe_sum, ← EReal.coe_add]

/-- The degree of real points, summed entry by entry, is the real degree. -/
theorem degDense_coe (x : ι → κ → ℝ) (n : ι) :
    degDense (fun n k => ((x n k : ℝ) : EReal)) n = ((degReal x n : ℝ) : EReal) := by
  simp only [degDense, weight_coe, coe_sum, sum_weightR]

omit [DecidableEq ι] in
/-- The degree of real points, as `x_n · (Σ_m x_m) + 1`, is the real degree. -/
theorem degFactored_coe (x : ι → κ → ℝ) (n : ι) :
    degFactored (fun n k => ((x n k : ℝ) : EReal)) n = ((degReal x n : ℝ) : EReal) := by
  simp only [degFactored, colSum, degReal, coe_sum, ← EReal.coe_mul, ← EReal.coe_add, ← EReal.coe_one]

/-- The guard of a real number is real. -/
theorem guard_coe (r : ℝ) : guard (r : EReal) = ((guardR r : ℝ) : EReal) := by
  unfold guard guardR
  by_cases h : r = 0
  · rw [if_pos h, if_pos (EReal.coe_eq_zero.mpr h), EReal.coe_one]
  · rw [if_neg h, if_neg (fun h' => h (EReal.coe_eq_zero.mp h'))]

/-- A guarded number that was not negative is positive. -/
theorem guardR_pos {r : ℝ} (h : 0 ≤ r) : 0 < guardR r := by
  unfold guardR
  split_ifs with h0
  · exact one_pos
  · exact lt_of_le_of_ne h (Ne.symm h0)

/-- On a positive real the first inverse square root is `(√g)⁻¹`. -/
theorem rsqrt_coe_of_pos {g : ℝ} (hg : 0 < g) : Ideal.rsqrt (g : EReal) = (((Real.sqrt g)⁻¹ : ℝ) : EReal) := by
  rw [Ideal.rsqrt_coe, if_neg (not_lt.mpr hg.le), if_neg hg.ne']

/-- On a positive real the power `-1/2` is `(√g)⁻¹` too: `g^(-1/2) = (g^(1/2))⁻¹ = (√g)⁻¹`. -/
theorem pow_neg_half_of_pos {g : ℝ} (hg : 0 < g) :
    Ideal.pow (g : EReal) ((-(1 / 2) : ℝ) : EReal) = (((Real.sqrt g)⁻¹ : ℝ) : EReal) := by
  rw [Ideal.pow_coe_coe, Real.rpow_eq_pow, Real.rpow_neg hg.le, ← Real.sqrt_eq_rpow]

/-- Under degrees that are not negative, the dense arrangement's scale at real points is `(√(guarded degree))⁻¹`. -/
theorem scaleDense_coe (x : ι → κ → ℝ) (hd : ∀ n, 0 ≤ degReal x n) (n : ι) :
    scaleDense (fun n k => ((x n k : ℝ) : EReal)) n = ((scaleR x n : ℝ) : EReal) := by
  unfold scaleDense scaleR
  rw [degDense_coe, guard_coe, pow_neg_half_of_pos (guardR_pos (hd n))]

omit [DecidableEq ι] in
/-- Under degrees that are not negative, the factored arrangement's scale at real points is the same real number. -/
theorem scaleFactored_coe (x : ι → κ → ℝ) (hd : ∀ n, 0 ≤ degReal x n) (n : ι) :
    scaleFactored (fun n k => ((x n k : ℝ) : EReal)) n = ((scaleR x n : ℝ) : EReal) := by
  unfold scaleFactored scaleR
  rw [degFactored_coe, guard_coe, rsqrt_coe_of_pos (guardR_pos (hd n))]

/-- The dense arrangement at real arguments with degrees that are not negative is its real counterpart. -/
theorem layerDense_coe (x : ι → κ → ℝ) (w : κ → κ → ℝ) (b : κ → ℝ) (hd : ∀ n, 0 ≤ degReal x n) (n : ι) (f : κ) :
    layerDense (fun n k => ((x n k : ℝ) : EReal)) (fun k f => ((w k f : ℝ) : EReal)) (fun f => ((b f : ℝ) : EReal)) n f
      = ((max (preDenseR x w b n f) 0 : ℝ) : EReal) := by
  simp only [layerDense, preDenseR, weight_coe, scaleDense_coe x hd, hidden_coe, ← EReal.coe_mul, coe_sum]
  rw [← EReal.coe_zero, coe_max]

omit [DecidableEq ι] in
/-- The factored arrangement at real arguments with degrees that are not negative is its real counterpart. -/
theorem layerFactored_coe (x : ι → κ → ℝ) (w : κ → κ → ℝ) (b : κ → ℝ) (hd : ∀ n, 0 ≤ degReal x n) (n : ι)
    (f : κ) :
    layerFactored (fun n k => ((x n k : ℝ) : EReal)) (fun k f => ((w k f : ℝ) : EReal)) (fun f => ((b f : ℝ) : EReal))
        n f
      = ((max (preFactoredR x w b n f) 0 : ℝ) : EReal) := by
  simp only [layerFactored, gram, scaledHidden, preFactoredR, scaleFactored_coe x hd, hidden_coe, ← EReal.coe_mul,
    coe_sum, ← EReal.coe_add]
  rw [← EReal.coe_zero, coe_max]

/-! ## The law -/

/-- One layer: at real arguments whose degrees are not negative the two arrangements give the same real matrix, and
    none of its entries is negative (each is a maximum with zero). -/
theorem layer_eq (x : ι → κ → ℝ) (w : κ → κ → ℝ) (b : κ → ℝ) (hd : ∀ n, 0 ≤ degReal x n) :
    ∃ y : ι → κ → ℝ, (∀ n f, 0 ≤ y n f)
      ∧ layerFactored (fun n k => ((x n k : ℝ) : EReal)) (fun k f => ((w k f : ℝ) : EReal))
          (fun f => ((b f : ℝ) : EReal)) = (fun n f => ((y n f : ℝ) : EReal))
      ∧ layerDense (fun n k => ((x n k : ℝ) : EReal)) (fun k f => ((w k f : ℝ) : EReal))
          (fun f => ((b f : ℝ) : EReal)) = (fun n f => ((y n f : ℝ) : EReal)) := by
  refine ⟨fun n f => max (preFactoredR x w b n f) 0, fun n f => le_max_right _ _, ?_, ?_⟩
  · funext n f
    exact layerFactored_coe x w b hd n f
  · funext n f
    rw [layerDense_coe x w b hd n f, preDenseR_eq]

/-- Three layers: the first agrees under the hypothesis on the degrees; its output has no negative entry, so its
    degrees are positive and the second agrees; and likewise the third. -/
theorem three_eq (x : ι → κ → ℝ) (w0 w1 w2 : κ → κ → ℝ) (b0 b1 b2 : κ → ℝ) (hd : ∀ n, 0 ≤ degReal x n) :
    three layerFactored (fun n k => ((x n k : ℝ) : EReal)) (fun k f => ((w0 k f : ℝ) : EReal))
        (fun f => ((b0 f : ℝ) : EReal)) (fun k f => ((w1 k f : ℝ) : EReal)) (fun f => ((b1 f : ℝ) : EReal))
        (fun k f => ((w2 k f : ℝ) : EReal)) (fun f => ((b2 f : ℝ) : EReal))
      = three layerDense (fun n k => ((x n k : ℝ) : EReal)) (fun k f => ((w0 k f : ℝ) : EReal))
        (fun f => ((b0 f : ℝ) : EReal)) (fun k f => ((w1 k f : ℝ) : EReal)) (fun f => ((b1 f : ℝ) : EReal))
        (fun k f => ((w2 k f : ℝ) : EReal)) (fun f => ((b2 f : ℝ) : EReal)) := by
  obtain ⟨y1, hy1, hf1, hd1⟩ := layer_eq x w0 b0 hd
  obtain ⟨y2, hy2, hf2, hd2⟩ := layer_eq y1 w1 b1 fun n => (degReal_pos_of_nonneg y1 hy1 n).le
  obtain ⟨y3, _, hf3, hd3⟩ := layer_eq y2 w2 b2 fun n => (degReal_pos_of_nonneg y2 hy2 n).le
  unfold three
  rw [hf1, hd1, hf2, hd2, hf3, hd3]

end Cert.GraphConv

end
-- ==== Proof.GraphConvFinite.lean ====
/-
  The law of the graph-convolution layer for extended-real inputs that are finite, and the two constants of the layer.

  An extended real that is neither infinity is a real number; a matrix all of whose entries are finite is the image
  of a real matrix. So the law for real inputs (three layers of the two arrangements agree when the degrees of the
  input are not negative) holds as it stands for finite extended-real inputs, the hypothesis on the degrees being read
  through the real degree.

  The two constants: the single-precision pattern `0x3F800000` (sign 0, exponent 127, fraction 0) denotes
  `2^23 · 2^(127 - 127 - 23) = 1`, and `0xBF000000` (sign 1, exponent 126, fraction 0) denotes
  `-(2^23 · 2^(126 - 127 - 23)) = -1/2`.
-/
import proofs.«151379_j33741263077528_1_alg».proof.Proof.GraphConvLaw
import Idealize.ShloMosaic.PureOps.IdealRules

noncomputable section

namespace Cert.GraphConv

open Idealize.ShloMosaic

variable {ι κ : Type} [Fintype ι] [Fintype κ] [DecidableEq ι]

/-- Three layers of the two arrangements agree on finite extended-real inputs whose degrees are not negative: name the
    real number each entry is, and the law for real inputs applies. -/
theorem three_eq_of_finite (X : ι → κ → EReal) (W0 W1 W2 : κ → κ → EReal) (b0 b1 b2 : κ → EReal)
    (hX : ∀ n k, ∃ r : ℝ, X n k = ((r : ℝ) : EReal))
    (hW0 : ∀ k f, ∃ r : ℝ, W0 k f = ((r : ℝ) : EReal)) (hb0 : ∀ f, ∃ r : ℝ, b0 f = ((r : ℝ) : EReal))
    (hW1 : ∀ k f, ∃ r : ℝ, W1 k f = ((r : ℝ) : EReal)) (hb1 : ∀ f, ∃ r : ℝ, b1 f = ((r : ℝ) : EReal))
    (hW2 : ∀ k f, ∃ r : ℝ, W2 k f = ((r : ℝ) : EReal)) (hb2 : ∀ f, ∃ r : ℝ, b2 f = ((r : ℝ) : EReal))
    (hd : ∀ n, 0 ≤ degDense X n) :
    three layerFactored X W0 b0 W1 b1 W2 b2 = three layerDense X W0 b0 W1 b1 W2 b2 := by
  choose x hx using hX
  choose w0 hw0 using hW0
  choose c0 hc0 using hb0
  choose w1 hw1 using hW1
  choose c1 hc1 using hb1
  choose w2 hw2 using hW2
  choose c2 hc2 using hb2
  obtain rfl : X = fun n k => ((x n k : ℝ) : EReal) := funext fun n => funext fun k => hx n k
  obtain rfl : W0 = fun k f => ((w0 k f : ℝ) : EReal) := funext fun k => funext fun f => hw0 k f
  obtain rfl : b0 = fun f => ((c0 f : ℝ) : EReal) := funext fun f => hc0 f
  obtain rfl : W1 = fun k f => ((w1 k f : ℝ) : EReal) := funext fun k => funext fun f => hw1 k f
  obtain rfl : b1 = fun f => ((c1 f : ℝ) : EReal) := funext fun f => hc1 f
  obtain rfl : W2 = fun k f => ((w2 k f : ℝ) : EReal) := funext fun k => funext fun f => hw2 k f
  obtain rfl : b2 = fun f => ((c2 f : ℝ) : EReal) := funext fun f => hc2 f
  refine three_eq x w0 w1 w2 c0 c1 c2 fun n => ?_
  have h := hd n
  rwa [degDense_coe, EReal.coe_nonneg] at h

/-- The single-precision pattern of one denotes one. -/
theorem one_f32 : Ideal.ofBits .f32 0x3F800000#32 = 1 :=
  IdealRules.sign_bit.ideal_onePat .f32

/-- The single-precision pattern `0xBF000000` denotes minus one half. -/
theorem neg_half_f32 : Ideal.ofBits .f32 0xBF000000#32 = ((-(1 / 2) : ℝ) : EReal) := by
  simp [Ideal.ofBits, Ideal.ieee, -EReal.coe_mul]
  norm_num

end Cert.GraphConv

end
-- ==== Proof.NetLaw.lean ====
/-
  The two arrangements of the network agree on finite inputs whose first-layer degrees are not negative: the law of
  GraphConvFinite, cloud by cloud.
-/
import proofs.«151379_j33741263077528_1_alg».proof.Proof.Net
import proofs.«151379_j33741263077528_1_alg».proof.Proof.GraphConvFinite

noncomputable section

namespace Cert.Net

open Idealize.ShloMosaic Idealize.ShloMosaic.ValueIdx

/-- For finite arguments, the degree of every point of every cloud being `≥ 0`, three factored layers are three dense ones. -/
theorem net_factored_eq_dense
    (x : (⟨3, ![16, 2048, 64]⟩ : Shape).Idx → EReal)
    (W0 : (⟨2, ![64, 64]⟩ : Shape).Idx → EReal) (b0 : (⟨1, ![64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (hx : ∀ i, ∃ r : ℝ, x i = ((r : ℝ) : EReal)) (hW0 : ∀ i, ∃ r : ℝ, W0 i = ((r : ℝ) : EReal)) (hb0 : ∀ i, ∃ r : ℝ, b0 i = ((r : ℝ) : EReal))
    (hW1 : ∀ i, ∃ r : ℝ, W1 i = ((r : ℝ) : EReal)) (hb1 : ∀ i, ∃ r : ℝ, b1 i = ((r : ℝ) : EReal))
    (hW2 : ∀ i, ∃ r : ℝ, W2 i = ((r : ℝ) : EReal)) (hb2 : ∀ i, ∃ r : ℝ, b2 i = ((r : ℝ) : EReal))
    (hd : ∀ (c : Fin 16) (n : Fin 2048), 0 ≤ Cert.GraphConv.degDense (fun (p : Fin 2048) (k : Fin 64) => x (ix3 c p k)) n) :
    net Cert.GraphConv.layerFactored x W0 b0 W1 b1 W2 b2 = net Cert.GraphConv.layerDense x W0 b0 W1 b1 W2 b2 := by
  funext i
  obtain ⟨c, n, f, rfl⟩ : ∃ (c : Fin 16) (n : Fin 2048) (f : Fin 64), i = ix3 c n f := ⟨i 0, i 1, i 2, eq_ix3 i⟩
  rw [net_ix3, net_ix3]
  exact congrFun (congrFun (Cert.GraphConv.three_eq_of_finite _ _ _ _ _ _ _ (fun n k => hx _) (fun k g => hW0 _) (fun g => hb0 _)
    (fun k g => hW1 _) (fun g => hb1 _) (fun k g => hW2 _) (fun g => hb2 _) (hd c)) n) f

end Cert.Net

end
-- ==== Proof.Domain.lean ====
/-
  The printed precondition, read back as mathematics.

  The precondition is a boolean program on the seven input arrays: for each array `v` the test `all (|v| < +inf)`, and
  last the test `all (rowsum ≥ 0)` where `rowsum (c, n) = Σ_m ((Σ_k x (c,n,k) · x (c,m,k)) + [n = m])`, the degree of point `n`
  in cloud `c`'s similarity graph with self-loops; the eight answers are joined by `and`. On the extended reals:

  * `|v| = max v (-v)` is below `⊤` exactly when `v` is neither `⊤` nor `⊥`, that is, when `v` is a real (`finite_elem`);
  * the batched product at (c, n, m) is the inner product of rows n and m (`dot_apply`); the identity matrix is built from two
    iotas compared for equality, the bit read as 0 or 1 (`eye_apply`), and carried to every cloud by two broadcasts
    (`bcast2_apply`); the sum over the last axis starts from the zero word, so it is the plain sum (`rowsum_apply`);
  * an `and` of bits is 1 exactly when both are, and a reduction by `and` that is 1 saw a 1 at every index.

  So where the program answers 1, every entry of every input is a real and every degree is not negative (`of_pre`).
-/
import proofs.«151379_j33741263077528_1_alg».proof.Pre_finite_inputs
import proofs.«151379_j33741263077528_1_alg».proof.Proof.GraphConv
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

namespace Cert.Domain

open Idealize.ShloMosaic Idealize.ShloMosaic.ValueIdx Cert.Pre_finite_inputs

variable [Cert.Pre_finite_inputs.Facts]

/-! ## One element of a test -/

theorem ofBool_eq_one (b : Bool) : BitVec.ofBool b = 1#1 ↔ b = true := by cases b <;> decide

/-- The ordered "less than" of two extended reals answers 1 exactly when the first is below the second. -/
theorem cmp_olt_eq_one (x y : EReal) : Ideal.cmp .olt x y = 1#1 ↔ x < y := by
  unfold Ideal.cmp; rw [ofBool_eq_one]; exact decide_eq_true_iff

/-- The ordered "greater or equal" answers 1 exactly when the second is at most the first. -/
theorem cmp_oge_eq_one (x y : EReal) : Ideal.cmp .oge x y = 1#1 ↔ y ≤ x := by
  unfold Ideal.cmp; rw [ofBool_eq_one]; exact decide_eq_true_iff

/-- The f32 word 0x7F800000 is plus infinity. -/
theorem ofBits_inf_f32 : Ideal.ofBits .f32 0x7F800000#32 = (⊤ : EReal) := by simp [Ideal.ofBits, Ideal.ieee]

/-- An extended real whose absolute value is below plus infinity is a real. -/
theorem real_of_abs_lt_top (v : EReal) (h : max v (-v) < ⊤) : ∃ r : ℝ, v = ((r : ℝ) : EReal) := by
  induction v using EReal.rec with
  | bot => simp at h
  | coe r => exact ⟨r, rfl⟩
  | top => simp at h

/-- One element of a finiteness test: where `|v| < +inf` answers 1, the entry of `v` is a real. -/
theorem finite_elem {s : Shape} (v : FVec Ideal s .f32) (hb : S_.BroadcastsInDim s (![] : Fin 0 → Fin s.rank)) (i : s.Idx)
    (h : cmpf .olt (Host.absf v) (broadcastInDim s ![] hb (constant (F := Ideal) S_ .f32 0x7F800000#32)) i = 1#1) :
    ∃ r : ℝ, v i = ((r : ℝ) : EReal) := by
  have h1 : Ideal.cmp .olt (max (v i) (-(v i))) (broadcastInDim s ![] hb (constant (F := Ideal) S_ .f32 0x7F800000#32) i) = 1#1 := h
  rw [broadcastInDim_scalar_apply, constant_apply, ofBits_inf_f32, cmp_olt_eq_one] at h1
  exact real_of_abs_lt_top (v i) h1

instance : Subsingleton S_.Idx := ⟨fun a b => funext fun d => d.elim0⟩

open Cert.Pre_finite_inputs.Facts

/-! ## The batched product `x xᵀ` read at an entry -/

theorem lhs0 (i : S16x2048x2048.Idx) (q : dot_S16x2048x64_S16x2048x64_S16x2048x2048_2_2_1_1_0_0.contr.Idx) : (dot_S16x2048x64_S16x2048x64_S16x2048x2048_2_2_1_1_0_0.lhsIdx i q 0).val = (i 0).val := by
  unfold DotDims.lhsIdx
  rw [dif_pos (show (0 : Fin S16x2048x64.rank) ∈ dot_S16x2048x64_S16x2048x64_S16x2048x2048_2_2_1_1_0_0.lhsBatch from List.mem_singleton.mpr rfl)]
  rfl
theorem lhs1 (i : S16x2048x2048.Idx) (q : dot_S16x2048x64_S16x2048x64_S16x2048x2048_2_2_1_1_0_0.contr.Idx) : (dot_S16x2048x64_S16x2048x64_S16x2048x2048_2_2_1_1_0_0.lhsIdx i q 1).val = (i 1).val := by
  unfold DotDims.lhsIdx
  rw [dif_neg (show ¬(1 : Fin S16x2048x64.rank) ∈ dot_S16x2048x64_S16x2048x64_S16x2048x2048_2_2_1_1_0_0.lhsBatch by show ¬ (1 : Fin 3) ∈ ([0] : List (Fin 3)); decide),
    dif_pos (show (1 : Fin S16x2048x64.rank) ∈ dot_S16x2048x64_S16x2048x64_S16x2048x2048_2_2_1_1_0_0.lhsNonContracting from List.mem_singleton.mpr rfl)]
  rfl
theorem lhs2 (i : S16x2048x2048.Idx) (q : dot_S16x2048x64_S16x2048x64_S16x2048x2048_2_2_1_1_0_0.contr.Idx) : (dot_S16x2048x64_S16x2048x64_S16x2048x2048_2_2_1_1_0_0.lhsIdx i q 2).val = (q ⟨0, Nat.one_pos⟩).val :=
  dot_S16x2048x64_S16x2048x64_S16x2048x2048_2_2_1_1_0_0.lhsIdx_val_of_single rfl i q
theorem rhs0 (i : S16x2048x2048.Idx) (q : dot_S16x2048x64_S16x2048x64_S16x2048x2048_2_2_1_1_0_0.contr.Idx) : (dot_S16x2048x64_S16x2048x64_S16x2048x2048_2_2_1_1_0_0.rhsIdx i q 0).val = (i 0).val := by
  unfold DotDims.rhsIdx
  rw [dif_pos (show (0 : Fin S16x2048x64.rank) ∈ dot_S16x2048x64_S16x2048x64_S16x2048x2048_2_2_1_1_0_0.rhsBatch from List.mem_singleton.mpr rfl)]
  rfl
theorem rhs1 (i : S16x2048x2048.Idx) (q : dot_S16x2048x64_S16x2048x64_S16x2048x2048_2_2_1_1_0_0.contr.Idx) : (dot_S16x2048x64_S16x2048x64_S16x2048x2048_2_2_1_1_0_0.rhsIdx i q 1).val = (i 2).val := by
  unfold DotDims.rhsIdx
  rw [dif_neg (show ¬(1 : Fin S16x2048x64.rank) ∈ dot_S16x2048x64_S16x2048x64_S16x2048x2048_2_2_1_1_0_0.rhsBatch by show ¬ (1 : Fin 3) ∈ ([0] : List (Fin 3)); decide),
    dif_pos (show (1 : Fin S16x2048x64.rank) ∈ dot_S16x2048x64_S16x2048x64_S16x2048x2048_2_2_1_1_0_0.rhsNonContracting from List.mem_singleton.mpr rfl)]
  rfl
theorem rhs2 (i : S16x2048x2048.Idx) (q : dot_S16x2048x64_S16x2048x64_S16x2048x2048_2_2_1_1_0_0.contr.Idx) : (dot_S16x2048x64_S16x2048x64_S16x2048x2048_2_2_1_1_0_0.rhsIdx i q 2).val = (q ⟨0, Nat.one_pos⟩).val :=
  dot_S16x2048x64_S16x2048x64_S16x2048x2048_2_2_1_1_0_0.rhsIdx_val_of_single rfl i q

/-- Entry (c, n, m) of the batched product is the inner product of rows n and m of cloud c. -/
theorem dot_apply (x : FVec Ideal S16x2048x64 .f32) (c : Fin 16) (n m : Fin 2048) :
    Host.dotGeneral (F := Ideal) dot_S16x2048x64_S16x2048x64_S16x2048x2048_2_2_1_1_0_0 none x x (ix3 c n m) = ∑ k : Fin 64, x (ix3 c n k) * x (ix3 c m k) := by
  simp only [Host.dotGeneral]
  rw [Ideal.dotGeneral_apply, ← Equiv.sum_comp (contrEquiv1 dot_S16x2048x64_S16x2048x64_S16x2048x2048_2_2_1_1_0_0 64 rfl rfl).symm]
  refine Finset.sum_congr rfl fun k _ => ?_
  have hk := contrEquiv1_symm_val dot_S16x2048x64_S16x2048x64_S16x2048x2048_2_2_1_1_0_0 64 rfl rfl k
  have el : dot_S16x2048x64_S16x2048x64_S16x2048x2048_2_2_1_1_0_0.lhsIdx (ix3 c n m) ((contrEquiv1 dot_S16x2048x64_S16x2048x64_S16x2048x2048_2_2_1_1_0_0 64 rfl rfl).symm k) = ix3 c n k := funext fun a => Fin.ext (by
    match a with
    | ⟨0, _⟩ => exact lhs0 _ _
    | ⟨1, _⟩ => exact lhs1 _ _
    | ⟨2, _⟩ => exact (lhs2 _ _).trans hk)
  have er : dot_S16x2048x64_S16x2048x64_S16x2048x2048_2_2_1_1_0_0.rhsIdx (ix3 c n m) ((contrEquiv1 dot_S16x2048x64_S16x2048x64_S16x2048x2048_2_2_1_1_0_0 64 rfl rfl).symm k) = ix3 c m k := funext fun a => Fin.ext (by
    match a with
    | ⟨0, _⟩ => exact rhs0 _ _
    | ⟨1, _⟩ => exact rhs1 _ _
    | ⟨2, _⟩ => exact (rhs2 _ _).trans hk)
  rw [el, er]

/-! ## The identity matrix, its two broadcasts, the row sum -/

/-- A number below 2048 is its own 32-bit word. -/
theorem toNat_ofNat_fin (n : Fin 2048) : (BitVec.ofNat 32 n.val).toNat = n.val := by
  rw [BitVec.toNat_ofNat]; exact Nat.mod_eq_of_lt (by have := n.isLt; omega)

/-- The printed identity matrix (two iotas compared for equality, the bit converted to f32) at (n, m): one on the
    diagonal, zero off it. -/
theorem eye_apply (n m : Fin 2048) :
    uitofp (F := Ideal) .f32 (cmpi .eq (addi (iotaInDim S2048x2048 32 0) (broadcastInDim S2048x2048 ![] bcast_S_S2048x2048 (constantI S_ 32 0#32)))
      (iotaInDim S2048x2048 32 1)) (ix2 n m) = if n = m then (1 : EReal) else 0 := by
  show (((IntOp.cmpi .eq (IntOp.addi (BitVec.ofNat 32 n.val) (broadcastInDim S2048x2048 ![] bcast_S_S2048x2048 (constantI S_ 32 0#32) (ix2 n m)))
      (BitVec.ofNat 32 m.val)).toNat : ℝ) : EReal) = _
  rw [broadcastInDim_scalar_apply]
  have hz : IntOp.addi (BitVec.ofNat 32 n.val) (constantI S_ 32 0#32 ix0) = BitVec.ofNat 32 n.val := BitVec.add_zero _
  rw [hz]
  by_cases hnm : n = m
  · subst hnm
    rw [if_pos rfl, IntOp.cmpi_eq.2 rfl]
    simp
  · rw [if_neg hnm]
    have hne : ¬ IntOp.cmpi .eq (BitVec.ofNat 32 n.val) (BitVec.ofNat 32 m.val) = 1#1 := fun h => by
      have h2 := congrArg BitVec.toNat (IntOp.cmpi_eq.1 h)
      rw [toNat_ofNat_fin, toNat_ofNat_fin] at h2
      exact hnm (Fin.ext h2)
    rw [eq_zero_of_ne_one hne]
    simp

/-- The two broadcasts ([2048,2048] to [1,2048,2048] to [16,2048,2048]) read at (c, n, m): the matrix at (n, m). -/
theorem bcast2_apply {α : Type} (E : S2048x2048.Idx → α) (c : Fin 16) (n m : Fin 2048) :
    broadcastInDim S16x2048x2048 ![0, 1, 2] bcast_S1x2048x2048_S16x2048x2048_0_1_2
      (broadcastInDim S1x2048x2048 ![1, 2] bcast_S2048x2048_S1x2048x2048_1_2 E) (ix3 c n m) = E (ix2 n m) := by
  rw [broadcastInDim_apply _ bcast_S1x2048x2048_S16x2048x2048_0_1_2 _ (ix3 c n m) (ix3 (0 : Fin 1) n m) (fun a => match a with
    | ⟨0, _⟩ => by show 0 = if (1 : Nat) = 1 then 0 else c.val; rw [if_pos rfl]
    | ⟨1, _⟩ => by show n.val = if (2048 : Nat) = 1 then 0 else n.val; rw [if_neg (by decide)]
    | ⟨2, _⟩ => by show m.val = if (2048 : Nat) = 1 then 0 else m.val; rw [if_neg (by decide)])]
  exact broadcastInDim_apply _ bcast_S2048x2048_S1x2048x2048_1_2 E (ix3 (0 : Fin 1) n m) (ix2 n m) (fun a => match a with
    | ⟨0, _⟩ => by show n.val = if (2048 : Nat) = 1 then 0 else n.val; rw [if_neg (by decide)]
    | ⟨1, _⟩ => by show m.val = if (2048 : Nat) = 1 then 0 else m.val; rw [if_neg (by decide)])

/-- The host's sum over the last axis from the zero word, read at (c, n): the sum over m of the entries (c, n, m). -/
theorem rowsum_apply (y : FVec Ideal S16x2048x2048 .f32) (c : Fin 16) (n : Fin 2048) :
    Host.reduceAdd (F := Ideal) y (constant (F := Ideal) S_ .f32 0x00000000#32) reducesTo_S16x2048x2048_S16x2048_d2 h_S_ (ix2 c n)
      = ∑ m : Fin 2048, y (ix3 c n m) := by
  rw [hostReduceAdd_apply, Ideal.hostReduceAdd_single reducesTo_S16x2048x2048_S16x2048_d2 (by decide), constant_apply,
    Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- One element of the test `rowsum ≥ 0`: where it answers 1, that entry is not negative. -/
theorem ge_zero_elem (r : FVec Ideal S16x2048 .f32) (c : Fin 16) (n : Fin 2048)
    (h : cmpf .oge r (broadcastInDim S16x2048 ![] bcast_S_S16x2048 (constant (F := Ideal) S_ .f32 0x00000000#32)) (ix2 c n) = 1#1) :
    0 ≤ r (ix2 c n) := by
  have h1 : Ideal.cmp .oge (r (ix2 c n)) (broadcastInDim S16x2048 ![] bcast_S_S16x2048 (constant (F := Ideal) S_ .f32 0x00000000#32) (ix2 c n)) = 1#1 := h
  rw [broadcastInDim_scalar_apply, constant_apply, Ideal.ofBits_zero_f32, cmp_oge_eq_one] at h1
  exact h1

/-! ## The precondition decoded -/

/-- Where the printed precondition answers 1 on the extended reals: every entry of the seven inputs is a real, and every
    degree of every cloud's similarity graph (row sums of `x xᵀ + I`) is not negative. -/
theorem of_pre (x : FVec Ideal S16x2048x64 .f32) (W0 : FVec Ideal S64x64 .f32) (b0 : FVec Ideal S64 .f32) (W1 : FVec Ideal S64x64 .f32)
    (b1 : FVec Ideal S64 .f32) (W2 : FVec Ideal S64x64 .f32) (b2 : FVec Ideal S64 .f32)
    (h : Cert.Pre_finite_inputs.fn (F := Ideal) x W0 b0 W1 b1 W2 b2 = fun _ => 1#1) :
    (∀ i, ∃ r : ℝ, x i = ((r : ℝ) : EReal)) ∧ (∀ i, ∃ r : ℝ, W0 i = ((r : ℝ) : EReal)) ∧ (∀ i, ∃ r : ℝ, b0 i = ((r : ℝ) : EReal))
      ∧ (∀ i, ∃ r : ℝ, W1 i = ((r : ℝ) : EReal)) ∧ (∀ i, ∃ r : ℝ, b1 i = ((r : ℝ) : EReal)) ∧ (∀ i, ∃ r : ℝ, W2 i = ((r : ℝ) : EReal))
      ∧ (∀ i, ∃ r : ℝ, b2 i = ((r : ℝ) : EReal))
      ∧ (∀ (c : Fin 16) (n : Fin 2048), 0 ≤ Cert.GraphConv.degDense (fun (p : Fin 2048) (k : Fin 64) => x (ix3 c p k)) n) := by
  have e := congrFun h ix0
  dsimp only [fn, fn_part1, fn_part2] at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  refine ⟨fun i => finite_elem x _ i (Host.reduce_andi_all _ _ _ _ ix0 h0 i),
    fun i => finite_elem W0 _ i (Host.reduce_andi_all _ _ _ _ ix0 h1 i),
    fun i => finite_elem b0 _ i (Host.reduce_andi_all _ _ _ _ ix0 h2 i),
    fun i => finite_elem W1 _ i (Host.reduce_andi_all _ _ _ _ ix0 h3 i),
    fun i => finite_elem b1 _ i (Host.reduce_andi_all _ _ _ _ ix0 h4 i),
    fun i => finite_elem W2 _ i (Host.reduce_andi_all _ _ _ _ ix0 h5 i),
    fun i => finite_elem b2 _ i (Host.reduce_andi_all _ _ _ _ ix0 h6 i), fun c n => ?_⟩
  have hd := ge_zero_elem _ c n (Host.reduce_andi_all _ _ _ _ ix0 h7 (ix2 c n))
  rw [rowsum_apply] at hd
  unfold Cert.GraphConv.degDense Cert.GraphConv.weight
  refine hd.trans_eq (Finset.sum_congr rfl fun m _ => ?_)
  rw [addf_apply, dot_apply, bcast2_apply, eye_apply]

end Cert.Domain

end
-- ==== Proof.lean ====
/-
  Three graph-convolution layers on sixteen clouds of 2048 points with 64 features: the kernel computes each layer in
  a factored arrangement (never forming the 2048×2048 similarity matrix), the reference in the dense one.

  Per cloud `X` (2048×64), weights `W` (64×64) and bias `b`: the edge weight between points `n` and `m` is
  `x_n · x_m` plus one on the diagonal; the degree `deg_n` is the sum of row `n`; `d_n = deg_n^(-1/2)`, a zero degree
  replaced by one first; and the layer is `relu (Â (X W + b))` with `Â_nm = w_nm d_n d_m`. The reference forms `Â` and
  multiplies. The kernel uses `deg_n = x_n · (Σ_m x_m) + 1` and `Â H = d (X (Xᵀ (d H)) + d H)` row-scaled: the same sums,
  distributed the other way (GraphConvLaw: over the reals, by exchanging the order of the two finite sums).

  The two inverse square roots are one function on positive numbers only: of a negative number the kernel's
  reciprocal square root is `⊥` where the reference's real power is `0`, and from there the two programs' results part
  (at x[0,0,0] = 3, x[0,1,0] = -1, W0[0,0] = W1[0,0] = W2[0,0] = 1, every other entry and every bias 0, the result at
  (0,0,0) is 0 for the kernel and 30/7 for the reference). So the statement is made on the reference's own domain: the
  precondition asks, beside finite inputs, that the first layer's degrees — the numbers the reference raises to the
  power -1/2 — are not negative (Domain decodes it). After the first layer every entry is a relu's value, `≥ 0`, so the later
  degrees are `≥ 1` and need no hypothesis.

  The modules: GraphConv (the two arrangements, on the extended reals), GraphConvLaw / GraphConvFinite (they agree on
  finite inputs with degrees `≥ 0`), Net / NetLaw (the whole result array as one function of the seven arguments, in
  either arrangement), KernelLayer / KernelLayerRead / KernelValue (the kernel's body is the factored layer three
  times, and its result array is `Net.net layerFactored` of the arguments), RefLayer / RefAdjRead / RefLayerRead /
  ReferenceValue (the reference's run ends at `Net.net layerDense` of the arguments), Domain (what the precondition says
  of the arguments). The frames of the two kernels are the generated ones; the reference's frame is its run with the
  result dropped; the idealization rewrote nothing, so `preserves` is `True`.
-/
import proofs.«151379_j33741263077528_1_alg».proof.Defs
import proofs.«151379_j33741263077528_1_alg».proof.Proof.Gen.Kernel
import proofs.«151379_j33741263077528_1_alg».proof.Proof.Gen.Kernel.Skeleton
import proofs.«151379_j33741263077528_1_alg».proof.Proof.Gen.Kernel.Launch
import proofs.«151379_j33741263077528_1_alg».proof.Proof.Gen.Kernel.Points
import proofs.«151379_j33741263077528_1_alg».proof.Proof.Gen.Kernel.Frame
import proofs.«151379_j33741263077528_1_alg».proof.Proof.Gen.KernelIdeal
import proofs.«151379_j33741263077528_1_alg».proof.Proof.Gen.KernelIdeal.Skeleton
import proofs.«151379_j33741263077528_1_alg».proof.Proof.Gen.KernelIdeal.Launch
import proofs.«151379_j33741263077528_1_alg».proof.Proof.Gen.KernelIdeal.Points
import proofs.«151379_j33741263077528_1_alg».proof.Proof.Gen.KernelIdeal.Frame
import proofs.«151379_j33741263077528_1_alg».proof.Proof.Gen.KernelIdeal.Value
import proofs.«151379_j33741263077528_1_alg».proof.Proof.Gen.ReferenceIdeal
import proofs.«151379_j33741263077528_1_alg».proof.Proof.Gen.Pre_finite_inputs
import proofs.«151379_j33741263077528_1_alg».proof.Proof.KernelValue
import proofs.«151379_j33741263077528_1_alg».proof.Proof.ReferenceValue
import proofs.«151379_j33741263077528_1_alg».proof.Proof.NetLaw
import proofs.«151379_j33741263077528_1_alg».proof.Proof.Domain
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceValue.run m ρ)

/-- The idealization rewrote no operation. -/
theorem preserves : Cert.preserves_Kernel_KernelIdeal := trivial

/-- Both programs end with the network of the arguments: the kernel in the factored arrangement, the reference in the
    dense one, and on the precondition's domain — finite arguments, first-layer degrees `≥ 0` — these are one array. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩) (Cert.ReferenceValue.run m' ρ')
  obtain ⟨a0, a1, a2, a3, a4, a5, a6⟩ := hagree c
  rw [a0, a1, a2, a3, a4, a5, a6]
  obtain ⟨hx, hW0, hb0, hW1, hb1, hW2, hb2, hd⟩ := Cert.Domain.of_pre _ _ _ _ _ _ _ (hpre c)
  exact (Cert.Net.net_factored_eq_dense _ _ _ _ _ _ _ hx hW0 hb0 hW1 hb1 hW2 hb2 hd).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
